-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 10
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S400x128, .f32⟩
  | .local _ .vmem, ⟨3, _⟩ => ⟨S400x128, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S400x10000_S400x10000_0_0 : ∀ a, (![0, 0] : Fin 2 → Nat) a + S400x10000.size a ≤ S400x10000.size a
  h_S400x10000 : 0 < S400x10000.numel
  natLt_1_32 : 1 < 32
  bitsLt_bf16_f32 : FTy.bits .bf16 < FTy.bits .f32
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S400x10000_S400x128_S10000x128_0_0_1_1_n_n_wf : DotDims.WF S400x10000 S400x128 S10000x128 [0] [0] [1] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S10000x128.size a
  hwx0_7 : ∀ i : grid0.Coords, EltTy.bits .f32 = 32 ∨ (Rect.block (s := S10000x128) S10000x128.size (cc0_transform_7 i) (hinb0_7 i)).WholeWords (EltTy.packing .f32)

variable [Facts₀]

def dot_S400x10000_S400x128_S10000x128_0_0_1_1_n_n : DotDims S400x10000 S400x128 S10000x128 where
  lhsContracting := [0]
  rhsContracting := [0]
  lhsNonContracting := [1]
  rhsNonContracting := [1]
  lhsBatch := []
  rhsBatch := []
  wf := dot_S400x10000_S400x128_S10000x128_0_0_1_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S10000x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S10000x10000, .f32⟩
  | .hbm, ⟨8, _⟩ => ⟨S10000x10000, .i1⟩
  | .hbm, ⟨9, _⟩ => ⟨S10000x10000, .f32⟩
  | .hbm, ⟨10, _⟩ => ⟨S10000x10000, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  transposes_S10000x10000_S10000x10000_1_0 : S10000x10000.Transposes [1, 0] S10000x10000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibSharedLaunch.lean ====
import Idealize.ShloMosaic.Lib.Pipeline.FrameSuffix

/-!
# The frame run around a region whose windows may share arrays

A pipeline may be handed ONE array through several input windows (a matrix read both block by block and whole).
The buffers behind the windows' arrays are then fewer than the windows, and what the launch holds of them — each
buffer whole, once — has to be dealt among the windows on it: an array read by two windows is held by each at a
share of its own, at the same contents.

`θ_run_frame_around_track_shared` is the run of such a program whose @main is host lines, the region, host lines.
The certificate says how the buffers behind the arrays and the windows' holdings turn into each other at any contents
on which windows of one array agree (`hdeal`); everything else is as for distinct arrays. At the region's exit the
holdings are gathered back into whole buffers (`V₁`: the arrays at what the write-backs left, the other buffers as
they were), the lines after the region run on those, and the whole buffers are dealt out once more for the final
reading. The post states every array at its final contents and every other unscoped buffer at what the later lines
leave.
-/

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

local notation "𝕍" => Variants.lift 𝒱₀

omit [Fintype P] [DecidableEq P] [∀ e, Nonempty (Val e)] in
/-- The core's unscoped buffers held at a valuation are the buffers behind the windows' arrays and the buffers that
    bypass the region, at it — the arrays distinct or not. -/
theorem held_ucRefs_split (hunsc : ∀ w, (arrRef (cfg).spec w).isScoped = false) (c : Dev nD) (Wv : Valuation τ sig Val) :
    (StableHlo.held (c.tc : Thread nD τ) (ucRefs τ sig) Wv : sProp 𝕄)
      = iprop((arrBufs (cfg).spec c (fun b => Wv (Proc.devRef .tc b)) : sProp 𝕄)
          ∗ unscopedRest (cfg).spec c (fun b => Wv (Proc.devRef .tc b))) := by
  rw [← unscopedBufs_held (Ix := Unit) (Name := ℕ) (U := UR sig nD τ) (Lvl := ℕ) c Wv]
  exact unscopedBufs_split₀ cfgs p hunsc c (fun b => Wv (Proc.devRef .tc b))

omit [Fintype P] [DecidableEq P] [∀ e, Nonempty (Val e)] in
/-- THE LINES AFTER THE REGION when windows may share arrays. At the region's exit the windows hold their arrays at what
    the write-backs left, each at its share, and the bypassing buffers are at their entry contents `V₀`. The holdings are
    gathered into whole buffers (`hdeal`, right to left, at `V₁`: on the arrays what the write-backs left, elsewhere
    `V₀`), the lines run within the core's unscoped buffers, writing no array (`hkeep`), and the buffers are dealt out to
    the windows again (`hdeal`, left to right), the bypassing ones now at what the lines left. -/
theorem tail_seqs_shared (hunsc : ∀ w, (arrRef (cfg).spec w).isScoped = false)
    (c : Dev nD) (V₀ V₁ : Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hdeal : ∀ (Vv : (b : Ref sig .tc) → Buf Val ((c.tc : Thread nD τ).loc b))
        (F : (w : Fin (cfg).W) → Buf Val (((cfg).spec w).arr.view.loc (c.tc : Thread nD τ))),
        (∀ w, F w = Vv (arrRef (cfg).spec w)) → ((arrBufs (cfg).spec c Vv : sProp 𝕄) ⊣⊢ (dats p c).arrays F))
    (hV₁ : ∀ w, (dats p c).arrAt w (cfg).N = V₁ (Proc.devRef .tc (arrRef (cfg).spec w)))
    (hrest : ∀ b ∈ restRefs sig (cfg).spec, V₁ (Proc.devRef .tc b) = V₀ (Proc.devRef .tc b))
    (Q' : PUnit → sProp 𝕄) :
    iprop((iprop((dats p c).arrays ((dats p c).arrAt · (cfg).N)
              ∗ unscopedRest (cfg).spec c (fun b => StableHlo.after opss.flatten V₁ (Proc.devRef .tc b))) -∗ Q' ⟨⟩)
        ∗ boundary (c.tc : Thread nD τ) ∗ (dats p c).arrays ((dats p c).arrAt · (cfg).N)
        ∗ unscopedRest (cfg).spec c (fun b => V₀ (Proc.devRef .tc b)))
      ⊢ wp frame (wpE 𝔻 𝕍 (c.tc : Thread nD τ) none) Set.univ (chain (opss.map StableHlo.seq)) Q' := by
  classical
  have hsub' : ∀ ops ∈ opss, ∀ op ∈ ops, op.bufs ⊆ ucRefs τ sig := fun ops ho op h => sub_ucRefs op (hsub ops ho op h)
  -- the lines write no array: after them each array still holds what the write-backs left
  have hafter : ∀ w, StableHlo.after opss.flatten V₁ (Proc.devRef .tc (arrRef (cfg).spec w)) = (dats p c).arrAt w (cfg).N := fun w => by
    rw [StableHlo.after_of_forall_not_mem _ _ fun op hop => ?_, hV₁]
    obtain ⟨ops, hops, hop⟩ := List.mem_flatten.mp hop
    exact hkeep ops hops op hop w
  have hgather := (hdeal (fun b => V₁ (Proc.devRef .tc b)) (fun w => (dats p c).arrAt w (cfg).N) hV₁).2
  have hdealout := (hdeal (fun b => StableHlo.after opss.flatten V₁ (Proc.devRef .tc b)) (fun w => (dats p c).arrAt w (cfg).N)
    (fun w => (hafter w).symm)).1
  have hrestEq : (unscopedRest (Ix := Unit) (Name := ℕ) (U := UR sig nD τ) (Lvl := ℕ) (cfg).spec c (fun b => V₀ (Proc.devRef .tc b)) : sProp 𝕄)
      = unscopedRest (cfg).spec c (fun b => V₁ (Proc.devRef .tc b)) := by
    unfold unscopedRest
    exact bigSep_congr fun b hb => by simp only [hrest b hb]
  have hpre : iprop((dats p c).arrays ((dats p c).arrAt · (cfg).N)
        ∗ unscopedRest (Ix := Unit) (Name := ℕ) (U := UR sig nD τ) (Lvl := ℕ) (cfg).spec c (fun b => V₀ (Proc.devRef .tc b)))
      ⊢ (StableHlo.held (c.tc : Thread nD τ) (ucRefs τ sig) V₁ : sProp 𝕄) := by
    rw [held_ucRefs_split cfgs p hunsc c V₁, hrestEq]
    iintro ⟨Ha, Hz⟩
    isplitl [Ha]
    · iapply hgather; iexact Ha
    · iexact Hz
  have hpost : (StableHlo.held (c.tc : Thread nD τ) (ucRefs τ sig) (StableHlo.after opss.flatten V₁) : sProp 𝕄)
      ⊢ iprop((dats p c).arrays ((dats p c).arrAt · (cfg).N)
        ∗ unscopedRest (Ix := Unit) (Name := ℕ) (U := UR sig nD τ) (Lvl := ℕ) (cfg).spec c
            (fun b => StableHlo.after opss.flatten V₁ (Proc.devRef .tc b))) := by
    rw [held_ucRefs_split cfgs p hunsc c (StableHlo.after opss.flatten V₁)]
    iintro ⟨Ha, Hz⟩
    isplitl [Ha]
    · iapply hdealout; iexact Ha
    · iexact Hz
  rw [← List.append_nil (opss.map StableHlo.seq)]
  iintro ⟨Hk, Hb, Ha, Hz⟩
  ihave Hh := hpre $$ [Ha Hz]
  · isplitl [Ha]
    · iexact Ha
    · iexact Hz
  icombine Hb Hh as Hb
  iapply (wp_seqs_then (fun q => (cfgs q).toPCfg (Val := Val)) defs₀ 𝒱₀ c (ucRefs τ sig) [] opss hsub' hfresh V₁) $$ Hb
  iintro Hb
  rw [chain_nil, wp_pure]
  imodintro
  iapply Hk
  icases Hb with ⟨-, H⟩
  iapply hpost; iexact H

theorem θ_run_frame_around_track_shared
    (hcell : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ V₁ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hdeal : ∀ c (Vv : (b : Ref sig .tc) → Buf Val ((c.tc : Thread nD τ).loc b))
        (F : (w : Fin (cfg).W) → Buf Val (((cfg).spec w).arr.view.loc (c.tc : Thread nD τ))),
        (∀ w, F w = Vv (arrRef (cfg).spec w)) → ((arrBufs (cfg).spec c Vv : sProp 𝕄) ⊣⊢ (dats p c).arrays F))
    (hA : ∀ c w, (dats p c).A w = V₀ c (Proc.devRef .tc (arrRef (cfg).spec w)))
    (hV₁ : ∀ c w, (dats p c).arrAt w (cfg).N = V₁ c (Proc.devRef .tc (arrRef (cfg).spec w)))
    (hrest : ∀ c, ∀ b ∈ restRefs sig (cfg).spec, V₁ c (Proc.devRef .tc b) = V₀ c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g)
      (FramePost cfgs dats p (fun c b => StableHlo.after opss.flatten (V₁ c) (Proc.devRef .tc b))) := by
  classical
  refine θ_run_region_pf_tail (fun q => (cfgs q).toPCfg (Val := Val)) (fun q => (cfgs q).toPCfg_adm) dats () hcell p hw
    (OwnSemFacts.none (cfg).spec) (PreFacts.none _) emb₁ defs₀ 𝒱₀ m g main (fun _ => chain (opss.map StableHlo.seq)) hbody hne harr hstage howed
    (G := fun _ => (BI.emp : sProp 𝕄)) (u₀ := initOf (cells cfgs hcell) (launchToks cfgs hcell)) (hu₀ := ?_)
    (V := fun c b => V₀ c (Proc.devRef .tc b)) (hmain := hmain)
    (hsplit := fun c => (hdeal c _ _ fun w => hA c w).1) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c
      (fun b => StableHlo.after opss.flatten (V₁ c) (Proc.devRef .tc b)))
    (hX := ?_) (hin := ?_) (hout := ?_)
    (htail := fun c Q' => tail_seqs_shared cfgs dats p defs₀ 𝒱₀ hw.arr_unscoped c (V₀ c) (V₁ c) opss hsub hfresh hkeep (hdeal c) (hV₁ c) (hrest c) Q')
    (QY := fun c s => ∀ b ∈ restRefs sig (cfg).spec, s.mem ((c.tc : Thread nD τ).loc b) = StableHlo.after opss.flatten (V₁ c) (Proc.devRef .tc b))
    (hY := ?_) (hQ := ?_)
  · -- the launch element is the pipeline's rounds copy, owned whole
    iintro Hu; imodintro
    isplitl [Hu]
    · iapply (show (ownU _ : sProp 𝕄) ⊢ BI.own (emb₁ _) from Entails.of_eq (ownU_emb₁ _)); iexact Hu
    · have hemp : (BI.emp : sProp 𝕄) ⊢ bigSep Finset.univ (fun _ : Dev nD => (BI.emp : sProp 𝕄)) := by
        rw [BI.bigSep_emp_const]
      iapply hemp; iempintro
  · -- of what the launch deals, the region's invariant takes the generator register; the bypassing buffers wait outside
    intro c
    rw [unscopedRestP_none]
    iintro ⟨HU, -, -, -, Hp, -⟩; imodintro
    isplitl [Hp]
    · iexists _; iexact Hp
    · iexact HU
  · intro c
    refine Entails.trans ?_ (hin c)
    unfold ΦA
    iintro ⟨Hp, -, Hr⟩
    isplitl [Hr]
    · iexact Hr
    · iexact Hp
  · intro c
    refine (hout c).trans ?_
    rw [ownSems0_none]; unfold ΦA
    iintro ⟨Hr, Hp⟩
    isplitl [Hp]
    · iexact Hp
    isplitr
    · iempintro
    · iexact Hr
  · -- the bypassing buffers are read back at what the later lines left
    intro c s'
    iintro ⟨-, HU, HSI⟩
    unfold unscopedRest
    imodintro
    iapply (pointsTo_read_all (restRefs sig (cfg).spec) (fun b => (c.tc : Thread nD τ).loc b)
      (fun b => StableHlo.after opss.flatten (V₁ c) (Proc.devRef .tc b)) s')
    isplitl [HU]
    · iexact HU
    · iexact HSI
  · intro s h c
    exact ⟨(h c).1, (h c).2.2⟩

end SharedFrame

end Pipeline

end Idealize.ShloMosaic

end
-- ==== Proof.KShared.lean ====
/-
  What the three runs of the kernel body share: the buffers as the region finds them (two reshaped bias rows are made
  first), the block each input window shows at a grid point, the two conditions the body branches on (first point; last
  point) decided over the grid, and the staging buffers by name.
-/
import proofs.«173049_g9139690406275_cont_9to1_m_1116_3_alg».proof.Proof.Gen.Kernel.Launch
import proofs.«173049_g9139690406275_cont_9to1_m_1116_3_alg».proof.Proof.Gen.Kernel.Skeleton
import proofs.«173049_g9139690406275_cont_9to1_m_1116_3_alg».proof.Proof.Gen.Kernel.Points
import proofs.«173049_g9139690406275_cont_9to1_m_1116_3_alg».proof.Proof.LibSharedLaunch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers when the region is entered: as launched, the two bias vectors recast as rows. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the two recasts, then the region, then nothing. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer shows its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer shows its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer shows its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer shows its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer shows its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer shows its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer shows its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "This is the first point." -/
abbrev cond_first (i : grid0.Coords) : Prop := (Scalar.cmpi .ne (Scalar.extui (Scalar.cmpi .eq (BitVec.ofNat 32 (i 0).val) 0#32)) 0#32) = 1#1
theorem hcond_first : ∀ t : Fin cfg0.N, cond_first (grid0.coords t) ↔ t.val = 0 :=
  (by decide +kernel : ∀ t : Fin grid0.N, cond_first (grid0.coords t) ↔ t.val = 0)

/-- "This is the last point." -/
abbrev cond_last (i : grid0.Coords) : Prop := (Scalar.cmpi .ne (Scalar.extui (Scalar.cmpi .eq (BitVec.ofNat 32 (i 0).val) 24#32)) 0#32) = 1#1
theorem hcond_last : ∀ t : Fin cfg0.N, cond_last (grid0.coords t) ↔ t.val = 24 :=
  (by decide +kernel : ∀ t : Fin grid0.N, cond_last (grid0.coords t) ↔ t.val = 24)

/-! ## The staging buffers by name -/

/-- The output's one staging buffer, through which its contents are stated. -/
abbrev VO : View sig .tc .vmem S10000x128 .f32 := (Memref.whole cc0_stg7_0 : Memref sig .tc .vmem S10000x128 .f32).view
abbrev ms_0 (t : Fin cfg0.N) : Memref sig .tc .vmem S400x10000 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S400x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S10000x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S10000x128 .f32 := win0_7.stage (cfg0.slots t 7)
abbrev hs_7 (t : Fin cfg0.N) : (ms_7 t).IsWhole := hstage0_7 ((cfg0.slots t 7).cast nbuf0_7)

end Cert.Kernel.Hand

end
-- ==== Proof.KRunA.lean ====
/-
  The body run at the first point: the output is zeroed, then the point's block is added. The stores it makes into the output's buffer are found by running it.
-/
import proofs.«173049_g9139690406275_cont_9to1_m_1116_3_alg».proof.Proof.KShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs at their contents, the body runs to the continuation holding the inputs as they
    were and the output's buffer with the listed stores made into it. -/
noncomputable def kernelRun_A (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) :
    { L : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L)) -∗ K ⟨⟩))
          ⊢ wp frame (wpE (defs₀ (F := F)) Variants.none c none) E (cc0__gin_kernel i arg1 harg1 arg2 harg2 arg3 harg3 arg4 harg4 arg5 harg5 arg6 harg6 arg7 harg7 arg8 harg8) K } := by
  refine ⟨?_, fun E K => ?run⟩
  case run =>
    simp only [cc0__gin_kernel_eq_skeleton]; unfold cc0__gin_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.Kernel.Hand

end
-- ==== Proof.KRunB.lean ====
/-
  The body run at a middle point: the point's block is added to the running output. The stores it makes into the output's buffer are found by running it.
-/
import proofs.«173049_g9139690406275_cont_9to1_m_1116_3_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs at their contents, the body runs to the continuation holding the inputs as they
    were and the output's buffer with the listed stores made into it. -/
noncomputable def kernelRun_B (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) :
    { L : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L)) -∗ K ⟨⟩))
          ⊢ wp frame (wpE (defs₀ (F := F)) Variants.none c none) E (cc0__gin_kernel i arg1 harg1 arg2 harg2 arg3 harg3 arg4 harg4 arg5 harg5 arg6 harg6 arg7 harg7 arg8 harg8) K } := by
  refine ⟨?_, fun E K => ?run⟩
  case run =>
    simp only [cc0__gin_kernel_eq_skeleton]; unfold cc0__gin_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.Kernel.Hand

end
-- ==== Proof.KRunC.lean ====
/-
  The body run at the last point: the point's block is added, then the two dense layers replace the output. The stores it makes into the output's buffer are found by running it.
-/
import proofs.«173049_g9139690406275_cont_9to1_m_1116_3_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs at their contents, the body runs to the continuation holding the inputs as they
    were and the output's buffer with the listed stores made into it. -/
noncomputable def kernelRun_C (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) :
    { L : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L)) -∗ K ⟨⟩))
          ⊢ wp frame (wpE (defs₀ (F := F)) Variants.none c none) E (cc0__gin_kernel i arg1 harg1 arg2 harg2 arg3 harg3 arg4 harg4 arg5 harg5 arg6 harg6 arg7 harg7 arg8 harg8) K } := by
  refine ⟨?_, fun E K => ?run⟩
  case run =>
    simp only [cc0__gin_kernel_eq_skeleton]; unfold cc0__gin_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.Kernel.Hand

end
-- ==== Proof.KFrame.lean ====
/-
  The frame of the program: it runs to the end, faults nowhere, and leaves its argument arrays as they were.

  The output's staging buffer is carried from point to point: zeroed at the first, each point's block of
  source rows added in, and at the last point replaced by the two dense layers of (features + gathered sum). `outsAt`
  names its contents after each point by recursion on the point. The feature matrix is handed to the pipeline twice
  (block by block, and whole), so the two windows each hold its buffer at half of the full share.
-/
import proofs.«173049_g9139690406275_cont_9to1_m_1116_3_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- Case A's stores tile the output's block. -/
theorem cover_A (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (y : S10000x128.Idx) :
    ∃ pc ∈ (kernelRun_A c i arg1 harg1 arg2 harg2 arg3 harg3 arg4 harg4 arg5 harg5 arg6 harg6 arg7 harg7 arg8 harg8 hc0 hc1 x0 x1 x2 x3 x4 x5 x6).1, y ∈ pc.1.set :=
  View.cover_of_tiledL (kernelRun_A c i arg1 harg1 arg2 harg2 arg3 harg3 arg4 harg4 arg5 harg5 arg6 harg6 arg7 harg7 arg8 harg8 hc0 hc1 x0 x1 x2 x3 x4 x5 x6).1 S10000x128.size (by sl_kernel_rfl) y

/-- What case A leaves in the output's buffer: its stores read back. -/
def out_A (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) : Vec F S10000x128 .f32 :=
  VO.read (Elt F) (VO.writes (Elt F) VO.junk (kernelRun_A c i arg1 harg1 arg2 harg2 arg3 harg3 arg4 harg4 arg5 harg5 arg6 harg6 arg7 harg7 arg8 harg8 hc0 hc1 x0 x1 x2 x3 x4 x5 x6).1)

/-- Case B's stores tile the output's block. -/
theorem cover_B (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) (y : S10000x128.Idx) :
    ∃ pc ∈ (kernelRun_B c i arg1 harg1 arg2 harg2 arg3 harg3 arg4 harg4 arg5 harg5 arg6 harg6 arg7 harg7 arg8 harg8 hc0 hc1 x0 x1 x2 x3 x4 x5 x6 xo).1, y ∈ pc.1.set :=
  View.cover_of_tiledL (kernelRun_B c i arg1 harg1 arg2 harg2 arg3 harg3 arg4 harg4 arg5 harg5 arg6 harg6 arg7 harg7 arg8 harg8 hc0 hc1 x0 x1 x2 x3 x4 x5 x6 xo).1 S10000x128.size (by sl_kernel_rfl) y

/-- What case B leaves in the output's buffer: its stores read back. -/
def out_B (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) : Vec F S10000x128 .f32 :=
  VO.read (Elt F) (VO.writes (Elt F) VO.junk (kernelRun_B c i arg1 harg1 arg2 harg2 arg3 harg3 arg4 harg4 arg5 harg5 arg6 harg6 arg7 harg7 arg8 harg8 hc0 hc1 x0 x1 x2 x3 x4 x5 x6 xo).1)

/-- Case C's stores tile the output's block. -/
theorem cover_C (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) (y : S10000x128.Idx) :
    ∃ pc ∈ (kernelRun_C c i arg1 harg1 arg2 harg2 arg3 harg3 arg4 harg4 arg5 harg5 arg6 harg6 arg7 harg7 arg8 harg8 hc0 hc1 x0 x1 x2 x3 x4 x5 x6 xo).1, y ∈ pc.1.set :=
  View.cover_of_tiledL (kernelRun_C c i arg1 harg1 arg2 harg2 arg3 harg3 arg4 harg4 arg5 harg5 arg6 harg6 arg7 harg7 arg8 harg8 hc0 hc1 x0 x1 x2 x3 x4 x5 x6 xo).1 S10000x128.size (by sl_kernel_rfl) y

/-- What case C leaves in the output's buffer: its stores read back. -/
def out_C (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) : Vec F S10000x128 .f32 :=
  VO.read (Elt F) (VO.writes (Elt F) VO.junk (kernelRun_C c i arg1 harg1 arg2 harg2 arg3 harg3 arg4 harg4 arg5 harg5 arg6 harg6 arg7 harg7 arg8 harg8 hc0 hc1 x0 x1 x2 x3 x4 x5 x6 xo).1)

/-! ## The output's buffer after each point -/

theorem not_last_of_first (t : Fin cfg0.N) (h : t.val = 0) : ¬cond_last (grid0.coords t) :=
  fun hl => by have := (hcond_last t).mp hl; omega
theorem not_first_of_ne (t : Fin cfg0.N) (h : ¬t.val = 0) : ¬cond_first (grid0.coords t) :=
  fun hf => h ((hcond_first t).mp hf)
theorem not_last_of_ne (t : Fin cfg0.N) (h : ¬t.val = 24) : ¬cond_last (grid0.coords t) :=
  fun hl => h ((hcond_last t).mp hl)

/-- The running output: after point `n`, what the case at `n` leaves, given what point `n - 1` left. -/
def outsAt (c : Dev nD) : (n : ℕ) → n < cfg0.N → Vec F S10000x128 .f32
  | 0, hn => out_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) ((hcond_first ⟨0, hn⟩).mpr rfl) (not_last_of_first ⟨0, hn⟩ rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h1 : n + 1 = 24 then
      out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (not_first_of_ne ⟨n + 1, hn⟩ (Nat.succ_ne_zero n)) ((hcond_last ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))
    else
      out_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (not_first_of_ne ⟨n + 1, hn⟩ (Nat.succ_ne_zero n)) (not_last_of_ne ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

theorem outsAt_A (c : Dev nD) (t : Fin cfg0.N) (h0 : t.val = 0) :
    outsAt m c t.val t.isLt = out_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) ((hcond_first t).mpr h0) (not_last_of_first t h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact absurd h0 (Nat.succ_ne_zero n)

theorem outsAt_B (c : Dev nD) (t : Fin cfg0.N) (h0 : ¬t.val = 0) (h1 : ¬t.val = 24) :
    outsAt m c t.val t.isLt = out_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (not_first_of_ne t h0) (not_last_of_ne t h1) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd rfl h0
  | succ n => exact (dif_neg h1).trans rfl

theorem outsAt_C (c : Dev nD) (t : Fin cfg0.N) (h0 : ¬t.val = 0) (h1 : t.val = 24) :
    outsAt m c t.val t.isLt = out_C c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (not_first_of_ne t h0) ((hcond_last t).mpr h1) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd rfl h0
  | succ n => exact (dif_pos h1).trans rfl

/-! ## The pipeline's proof data -/

/-- After the body each input's buffer shows its block and the output's the running contents; the feature matrix, handed
    to two windows, is held by each at half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-- After the first point the output's buffer holds what the point before left: it is written back only at the last. -/
theorem before_7_later (c : Dev nD) (t : Fin cfg0.N) (h0 : ¬t.val = 0) (d) :
    (dats m 0 c).before 7 t d = (outsAt m c (t.val - 1) (Nat.lt_of_le_of_lt (Nat.sub_le _ _) t.isLt)) := by
  have hN : t.val < 25 := lt_of_lt_of_eq t.isLt (show cfg0.N = 25 from N_0)
  rw [Dat.before_out_kept _ 7 rfl t h0 (Bool.eq_false_iff.mpr fun h => by have := (flush0_7 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t))

set_option maxHeartbeats 2000000 in
/-- The body at any point: the inputs' buffers show their blocks; the point is the first, a middle one or the last, and
    after the first the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  have hN : t.val < 25 := lt_of_lt_of_eq t.isLt (show cfg0.N = 25 from N_0)
  by_cases h0 : t.val = 0
  · rw [outsAt_A m c t h0]
    unfold out_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_A c (grid0.coords t) _ _ _ _ _ _ _ _ _ _ _ _ _ _ _ _ ((hcond_first t).mpr h0) (not_last_of_first t h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_A c _ _ _ _ _ _ _ _ _ _ _ _ _ _ _ _ _ _ _ _ _ _ _ _ _ _ )
  · simp only [before_7_later m c t h0]
    by_cases h1 : t.val = 24
    · rw [outsAt_C m c t h0 h1]
      unfold out_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_C c (grid0.coords t) _ _ _ _ _ _ _ _ _ _ _ _ _ _ _ _ (not_first_of_ne t h0) ((hcond_last t).mpr h1) (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_C c _ _ _ _ _ _ _ _ _ _ _ _ _ _ _ _ _ _ _ _ _ _ _ _ _ _ _ )
    · rw [outsAt_B m c t h0 h1]
      unfold out_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_B c (grid0.coords t) _ _ _ _ _ _ _ _ _ _ _ _ _ _ _ _ (not_first_of_ne t h0) (not_last_of_ne t h1) (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_B c _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## The buffers at the region's exit -/

/-- As at the region's entry, the output array at what the last point's write-back left. -/
def V1 (c : Dev nD) : Valuation τ sig (Elt F) :=
  Function.update (V0 m c) (Proc.devRef .tc main_v0) ((dats m 0 c).arrAt 7 cfg0.N)

theorem hV1_in (c : Dev nD) (w : Fin cfg0.W) (hw : Pipeline.arrRef spec0 w ≠ main_v0) (hin : (cfg0.win w).isOut = false) :
    (dats m 0 c).arrAt w cfg0.N = V1 m c (Proc.devRef .tc (Pipeline.arrRef spec0 w)) := by
  unfold V1; rw [Function.update_of_ne (StableHlo.devRef_ne_of_ne hw)]
  exact ((dats m 0 c).arrAt_in w hin _).trans (A_eq m c w)

theorem hV1 (c : Dev nD) (w : Fin cfg0.W) : (dats m 0 c).arrAt w cfg0.N = V1 m c (Proc.devRef .tc (Pipeline.arrRef spec0 w)) := by
  by_cases h : w = 7
  · subst h
    unfold V1
    exact (Function.update_self (Proc.devRef .tc main_v0) ((dats m 0 c).arrAt 7 cfg0.N) (V0 m c)).symm
  · exact hV1_in m c w (by revert w; decide) (by revert w; decide)

theorem hrest (c : Dev nD) : ∀ b ∈ Pipeline.restRefs sig spec0, V1 m c (Proc.devRef .tc b) = V0 m c (Proc.devRef .tc b) := fun b hb => by
  unfold V1
  refine Function.update_of_ne (StableHlo.devRef_ne_of_ne ?_) _ _
  rintro rfl
  simp only [Pipeline.restRefs, Finset.mem_sdiff, Finset.mem_image, Finset.mem_univ, true_and] at hb
  exact hb.2 ⟨7, rfl⟩

/-! ## Dealing the buffers among the windows -/

/-- The seven distinct buffers behind the eight windows. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1) ∗ (((c : Thread nD τ).loc main_arg2) ↦{fullShare} Vv main_arg2) ∗ (((c : Thread nD τ).loc main_call0_v0) ↦{fullShare} Vv main_call0_v0) ∗ (((c : Thread nD τ).loc main_arg4) ↦{fullShare} Vv main_arg4) ∗ (((c : Thread nD τ).loc main_call0_v1) ↦{fullShare} Vv main_call0_v1) ∗ (((c : Thread nD τ).loc main_v0) ↦{fullShare} Vv main_v0)) := by
  unfold Pipeline.arrBufs
  exact bigSep_eq_bigSepL_of_eq [main_arg0, main_arg1, main_arg2, main_call0_v0, main_arg4, main_call0_v1, main_v0] (by decide) (by decide) _

/-- What the windows hold of them: each its array whole, the two windows on the feature matrix half a share each. -/
theorem arrays_eq (c : Dev nD) (Vv : (b : Ref sig .tc) → Buf (Elt F) ((c : Thread nD τ).loc b))
    (Fw : (w : Fin cfg0.W) → Buf (Elt F) ((spec0 w).arr.view.loc (c : Thread nD τ))) (hF : ∀ w, Fw w = Vv (Pipeline.arrRef spec0 w)) :
    ((dats m 0 c).arrays Fw : sProp 𝕄)
      = iprop((((c : Thread nD τ).loc main_arg0) ↦{fullShare} Vv main_arg0) ∗ (((c : Thread nD τ).loc main_arg1) ↦{fullShare.left} Vv main_arg1)
          ∗ (((c : Thread nD τ).loc main_arg1) ↦{fullShare.right} Vv main_arg1) ∗ (((c : Thread nD τ).loc main_arg2) ↦{fullShare} Vv main_arg2)
          ∗ (((c : Thread nD τ).loc main_call0_v0) ↦{fullShare} Vv main_call0_v0) ∗ (((c : Thread nD τ).loc main_arg4) ↦{fullShare} Vv main_arg4)
          ∗ (((c : Thread nD τ).loc main_call0_v1) ↦{fullShare} Vv main_call0_v1) ∗ (((c : Thread nD τ).loc main_v0) ↦{fullShare} Vv main_v0)) := by
  unfold Dat.arrays
  rw [bigSep_W0, hF 0, hF 1, hF 2, hF 3, hF 4, hF 5, hF 6, hF 7, (arr_whole0 0).set_eq_univ, (arr_whole0 1).set_eq_univ, (arr_whole0 3).set_eq_univ, (arr_whole0 4).set_eq_univ, (arr_whole0 5).set_eq_univ, (arr_whole0 6).set_eq_univ, (arr_whole0 7).set_eq_univ]
  rfl

theorem hdeal (c : Dev nD) (Vv : (b : Ref sig .tc) → Buf (Elt F) ((c : Thread nD τ).loc b))
    (Fw : (w : Fin cfg0.W) → Buf (Elt F) ((spec0 w).arr.view.loc (c : Thread nD τ))) (hF : ∀ w, Fw w = Vv (Pipeline.arrRef spec0 w)) :
    (Pipeline.arrBufs spec0 c Vv : sProp 𝕄) ⊣⊢ (dats m 0 c).arrays Fw := by
  rw [arrBufs_eq, arrays_eq m c Vv Fw hF]
  constructor
  · iintro ⟨H0, H1, H2, H3, H4, H5, H6⟩
    ihave H1' := (pointsTo_share (PosShare.mem_left_op_right fullShare)).1 $$ H1
    icases H1' with ⟨H1a, H1b⟩
    isplitl [H0]; · iexact H0
    isplitl [H1a]; · iexact H1a
    isplitl [H1b]; · iexact H1b
    isplitl [H2]; · iexact H2
    isplitl [H3]; · iexact H3
    isplitl [H4]; · iexact H4
    isplitl [H5]; · iexact H5
    iexact H6
  · iintro ⟨H0, H1a, H1b, H2, H3, H4, H5, H6⟩
    isplitl [H0]; · iexact H0
    isplitl [H1a H1b]
    · iapply (pointsTo_share (PosShare.mem_left_op_right fullShare)).2
      isplitl [H1a]; · iexact H1a
      iexact H1b
    isplitl [H2]; · iexact H2
    isplitl [H3]; · iexact H3
    isplitl [H4]; · iexact H4
    isplitl [H5]; · iexact H5
    iexact H6

/-! ## The run and the frame -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

set_option backward.isDefEq.respectTransparency.types false in
/-- Every weakly fair execution ends, with every array of the pipeline at what the proof data say and every other
    unscoped buffer as the region found it. -/
theorem run_main : θ_run defs (onTc (τ := τ) (main (F := F))) (s₀ m ρ)
    (Pipeline.FramePost cfgs (dats m) 0 (fun c b => StableHlo.after ([] : List (List (HloOp τ sig (Elt F)))).flatten (V1 m c) (Proc.devRef .tc b))) :=
  Pipeline.θ_run_frame_around_track_shared cfgs (dats m) (0 : Fin 1) defs₀ Variants.none cellOf_inj winFacts₀0 block_pos0 arr_whole0 stage_whole0 m ρ main
    (hbody := fun c => (body_obligation m c).loose) (howed := fun _ _ => rfl) (V₀ := V0 m) (V₁ := V1 m) (opss := [])
    (hsub := fun _ h => absurd h (List.not_mem_nil)) (hfresh := fun _ h => absurd h (List.not_mem_nil)) (hkeep := fun _ h => absurd h (List.not_mem_nil))
    (hmain := hmain m Variants.none) (hdeal := hdeal m) (hA := A_eq m) (hV₁ := hV1 m) (hrest := hrest m)
    (hin := fun _ => .rfl) (hout := fun _ => .rfl)

/-- The value the output array ends at, and the argument arrays unchanged. -/
theorem run_out : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 7,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 3).trans (((dats m 0 c).arrAt_in 3 rfl _).trans ((A_eq m c 3).trans (V_main_arg2 m c))),
    ((h c).2 main_arg3 (Pipeline.mem_restRefs_of main_arg3 (by decide) (by decide))).trans ((hrest m c main_arg3 (Pipeline.mem_restRefs_of main_arg3 (by decide) (by decide))).trans (V_main_arg3 m c)),
    ((h c).1 5).trans (((dats m 0 c).arrAt_in 5 rfl _).trans ((A_eq m c 5).trans (V_main_arg4 m c))),
    ((h c).2 main_arg5 (Pipeline.mem_restRefs_of main_arg5 (by decide) (by decide))).trans ((hrest m c main_arg5 (Pipeline.mem_restRefs_of main_arg5 (by decide) (by decide))).trans (V_main_arg5 m c))⟩)
    (run_main m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_out m ρ)

end Cert.Kernel.Hand

end
-- ==== Proof.KIShared.lean ====
/-
  What the three runs of the kernel body share: the buffers as the region finds them (two reshaped bias rows are made
  first), the block each input window shows at a grid point, the two conditions the body branches on (first point; last
  point) decided over the grid, and the staging buffers by name.
-/
import proofs.«173049_g9139690406275_cont_9to1_m_1116_3_alg».proof.Proof.Gen.KernelIdeal.Launch
import proofs.«173049_g9139690406275_cont_9to1_m_1116_3_alg».proof.Proof.Gen.KernelIdeal.Skeleton
import proofs.«173049_g9139690406275_cont_9to1_m_1116_3_alg».proof.Proof.Gen.KernelIdeal.Points
import proofs.«173049_g9139690406275_cont_9to1_m_1116_3_alg».proof.Proof.LibSharedLaunch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers when the region is entered: as launched, the two bias vectors recast as rows. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program is the two recasts, then the region, then nothing. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer shows its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer shows its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer shows its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer shows its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer shows its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer shows its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer shows its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "This is the first point." -/
abbrev cond_first (i : grid0.Coords) : Prop := (Scalar.cmpi .ne (Scalar.extui (Scalar.cmpi .eq (BitVec.ofNat 32 (i 0).val) 0#32)) 0#32) = 1#1
theorem hcond_first : ∀ t : Fin cfg0.N, cond_first (grid0.coords t) ↔ t.val = 0 :=
  (by decide +kernel : ∀ t : Fin grid0.N, cond_first (grid0.coords t) ↔ t.val = 0)

/-- "This is the last point." -/
abbrev cond_last (i : grid0.Coords) : Prop := (Scalar.cmpi .ne (Scalar.extui (Scalar.cmpi .eq (BitVec.ofNat 32 (i 0).val) 24#32)) 0#32) = 1#1
theorem hcond_last : ∀ t : Fin cfg0.N, cond_last (grid0.coords t) ↔ t.val = 24 :=
  (by decide +kernel : ∀ t : Fin grid0.N, cond_last (grid0.coords t) ↔ t.val = 24)

/-! ## The staging buffers by name -/

/-- The output's one staging buffer, through which its contents are stated. -/
abbrev VO : View sig .tc .vmem S10000x128 .f32 := (Memref.whole cc0_stg7_0 : Memref sig .tc .vmem S10000x128 .f32).view
abbrev ms_0 (t : Fin cfg0.N) : Memref sig .tc .vmem S400x10000 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S400x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S10000x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S10000x128 .f32 := win0_7.stage (cfg0.slots t 7)
abbrev hs_7 (t : Fin cfg0.N) : (ms_7 t).IsWhole := hstage0_7 ((cfg0.slots t 7).cast nbuf0_7)

end Cert.KernelIdeal.Hand

end
-- ==== Proof.KIRunA.lean ====
/-
  The body run at the first point: the output is zeroed, then the point's block is added. The stores it makes into the output's buffer are found by running it.
-/
import proofs.«173049_g9139690406275_cont_9to1_m_1116_3_alg».proof.Proof.KIShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs at their contents, the body runs to the continuation holding the inputs as they
    were and the output's buffer with the listed stores made into it. -/
noncomputable def kernelRun_A (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) :
    { L : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L)) -∗ K ⟨⟩))
          ⊢ wp frame (wpE (defs₀ (F := F)) Variants.none c none) E (cc0__gin_kernel i arg1 harg1 arg2 harg2 arg3 harg3 arg4 harg4 arg5 harg5 arg6 harg6 arg7 harg7 arg8 harg8) K } := by
  refine ⟨?_, fun E K => ?run⟩
  case run =>
    simp only [cc0__gin_kernel_eq_skeleton]; unfold cc0__gin_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Hand

end
-- ==== Proof.KIRunB.lean ====
/-
  The body run at a middle point: the point's block is added to the running output. The stores it makes into the output's buffer are found by running it.
-/
import proofs.«173049_g9139690406275_cont_9to1_m_1116_3_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs at their contents, the body runs to the continuation holding the inputs as they
    were and the output's buffer with the listed stores made into it. -/
noncomputable def kernelRun_B (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) :
    { L : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L)) -∗ K ⟨⟩))
          ⊢ wp frame (wpE (defs₀ (F := F)) Variants.none c none) E (cc0__gin_kernel i arg1 harg1 arg2 harg2 arg3 harg3 arg4 harg4 arg5 harg5 arg6 harg6 arg7 harg7 arg8 harg8) K } := by
  refine ⟨?_, fun E K => ?run⟩
  case run =>
    simp only [cc0__gin_kernel_eq_skeleton]; unfold cc0__gin_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Hand

end
-- ==== Proof.KIRunC.lean ====
/-
  The body run at the last point: the point's block is added, then the two dense layers replace the output. The stores it makes into the output's buffer are found by running it.
-/
import proofs.«173049_g9139690406275_cont_9to1_m_1116_3_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging buffers, the inputs at their contents, the body runs to the continuation holding the inputs as they
    were and the output's buffer with the listed stores made into it. -/
noncomputable def kernelRun_C (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) :
    { L : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L)) -∗ K ⟨⟩))
          ⊢ wp frame (wpE (defs₀ (F := F)) Variants.none c none) E (cc0__gin_kernel i arg1 harg1 arg2 harg2 arg3 harg3 arg4 harg4 arg5 harg5 arg6 harg6 arg7 harg7 arg8 harg8) K } := by
  refine ⟨?_, fun E K => ?run⟩
  case run =>
    simp only [cc0__gin_kernel_eq_skeleton]; unfold cc0__gin_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Hand

end
-- ==== Proof.KIFrame.lean ====
/-
  The frame of the program: it runs to the end, faults nowhere, and leaves its argument arrays as they were.

  The output's staging buffer is carried from point to point: zeroed at the first, each point's block of
  source rows added in, and at the last point replaced by the two dense layers of (features + gathered sum). `outsAt`
  names its contents after each point by recursion on the point. The feature matrix is handed to the pipeline twice
  (block by block, and whole), so the two windows each hold its buffer at half of the full share.
-/
import proofs.«173049_g9139690406275_cont_9to1_m_1116_3_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- Case A's stores tile the output's block. -/
theorem cover_A (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (y : S10000x128.Idx) :
    ∃ pc ∈ (kernelRun_A c i arg1 harg1 arg2 harg2 arg3 harg3 arg4 harg4 arg5 harg5 arg6 harg6 arg7 harg7 arg8 harg8 hc0 hc1 x0 x1 x2 x3 x4 x5 x6).1, y ∈ pc.1.set :=
  View.cover_of_tiledL (kernelRun_A c i arg1 harg1 arg2 harg2 arg3 harg3 arg4 harg4 arg5 harg5 arg6 harg6 arg7 harg7 arg8 harg8 hc0 hc1 x0 x1 x2 x3 x4 x5 x6).1 S10000x128.size (by sl_kernel_rfl) y

/-- What case A leaves in the output's buffer: its stores read back. -/
def out_A (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) : Vec F S10000x128 .f32 :=
  VO.read (Elt F) (VO.writes (Elt F) VO.junk (kernelRun_A c i arg1 harg1 arg2 harg2 arg3 harg3 arg4 harg4 arg5 harg5 arg6 harg6 arg7 harg7 arg8 harg8 hc0 hc1 x0 x1 x2 x3 x4 x5 x6).1)

/-- Case B's stores tile the output's block. -/
theorem cover_B (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) (y : S10000x128.Idx) :
    ∃ pc ∈ (kernelRun_B c i arg1 harg1 arg2 harg2 arg3 harg3 arg4 harg4 arg5 harg5 arg6 harg6 arg7 harg7 arg8 harg8 hc0 hc1 x0 x1 x2 x3 x4 x5 x6 xo).1, y ∈ pc.1.set :=
  View.cover_of_tiledL (kernelRun_B c i arg1 harg1 arg2 harg2 arg3 harg3 arg4 harg4 arg5 harg5 arg6 harg6 arg7 harg7 arg8 harg8 hc0 hc1 x0 x1 x2 x3 x4 x5 x6 xo).1 S10000x128.size (by sl_kernel_rfl) y

/-- What case B leaves in the output's buffer: its stores read back. -/
def out_B (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) : Vec F S10000x128 .f32 :=
  VO.read (Elt F) (VO.writes (Elt F) VO.junk (kernelRun_B c i arg1 harg1 arg2 harg2 arg3 harg3 arg4 harg4 arg5 harg5 arg6 harg6 arg7 harg7 arg8 harg8 hc0 hc1 x0 x1 x2 x3 x4 x5 x6 xo).1)

/-- Case C's stores tile the output's block. -/
theorem cover_C (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) (y : S10000x128.Idx) :
    ∃ pc ∈ (kernelRun_C c i arg1 harg1 arg2 harg2 arg3 harg3 arg4 harg4 arg5 harg5 arg6 harg6 arg7 harg7 arg8 harg8 hc0 hc1 x0 x1 x2 x3 x4 x5 x6 xo).1, y ∈ pc.1.set :=
  View.cover_of_tiledL (kernelRun_C c i arg1 harg1 arg2 harg2 arg3 harg3 arg4 harg4 arg5 harg5 arg6 harg6 arg7 harg7 arg8 harg8 hc0 hc1 x0 x1 x2 x3 x4 x5 x6 xo).1 S10000x128.size (by sl_kernel_rfl) y

/-- What case C leaves in the output's buffer: its stores read back. -/
def out_C (c : Dev nD) (i : grid0.Coords) (arg1 : Memref sig .tc .vmem S400x10000 .f32) (harg1 : arg1.IsWhole) (arg2 : Memref sig .tc .vmem S400x128 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S10000x128 .f32) (harg8 : arg8.IsWhole) (hc0 : ¬cond_first i) (hc1 : cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) : Vec F S10000x128 .f32 :=
  VO.read (Elt F) (VO.writes (Elt F) VO.junk (kernelRun_C c i arg1 harg1 arg2 harg2 arg3 harg3 arg4 harg4 arg5 harg5 arg6 harg6 arg7 harg7 arg8 harg8 hc0 hc1 x0 x1 x2 x3 x4 x5 x6 xo).1)

/-! ## The output's buffer after each point -/

theorem not_last_of_first (t : Fin cfg0.N) (h : t.val = 0) : ¬cond_last (grid0.coords t) :=
  fun hl => by have := (hcond_last t).mp hl; omega
theorem not_first_of_ne (t : Fin cfg0.N) (h : ¬t.val = 0) : ¬cond_first (grid0.coords t) :=
  fun hf => h ((hcond_first t).mp hf)
theorem not_last_of_ne (t : Fin cfg0.N) (h : ¬t.val = 24) : ¬cond_last (grid0.coords t) :=
  fun hl => h ((hcond_last t).mp hl)

/-- The running output: after point `n`, what the case at `n` leaves, given what point `n - 1` left. -/
def outsAt (c : Dev nD) : (n : ℕ) → n < cfg0.N → Vec F S10000x128 .f32
  | 0, hn => out_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) ((hcond_first ⟨0, hn⟩).mpr rfl) (not_last_of_first ⟨0, hn⟩ rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h1 : n + 1 = 24 then
      out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (not_first_of_ne ⟨n + 1, hn⟩ (Nat.succ_ne_zero n)) ((hcond_last ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))
    else
      out_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (not_first_of_ne ⟨n + 1, hn⟩ (Nat.succ_ne_zero n)) (not_last_of_ne ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

theorem outsAt_A (c : Dev nD) (t : Fin cfg0.N) (h0 : t.val = 0) :
    outsAt m c t.val t.isLt = out_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) ((hcond_first t).mpr h0) (not_last_of_first t h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact absurd h0 (Nat.succ_ne_zero n)

theorem outsAt_B (c : Dev nD) (t : Fin cfg0.N) (h0 : ¬t.val = 0) (h1 : ¬t.val = 24) :
    outsAt m c t.val t.isLt = out_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (not_first_of_ne t h0) (not_last_of_ne t h1) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd rfl h0
  | succ n => exact (dif_neg h1).trans rfl

theorem outsAt_C (c : Dev nD) (t : Fin cfg0.N) (h0 : ¬t.val = 0) (h1 : t.val = 24) :
    outsAt m c t.val t.isLt = out_C c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (not_first_of_ne t h0) ((hcond_last t).mpr h1) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd rfl h0
  | succ n => exact (dif_pos h1).trans rfl

/-! ## The pipeline's proof data -/

/-- After the body each input's buffer shows its block and the output's the running contents; the feature matrix, handed
    to two windows, is held by each at half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

/-- After the first point the output's buffer holds what the point before left: it is written back only at the last. -/
theorem before_7_later (c : Dev nD) (t : Fin cfg0.N) (h0 : ¬t.val = 0) (d) :
    (dats m 0 c).before 7 t d = (outsAt m c (t.val - 1) (Nat.lt_of_le_of_lt (Nat.sub_le _ _) t.isLt)) := by
  have hN : t.val < 25 := lt_of_lt_of_eq t.isLt (show cfg0.N = 25 from N_0)
  rw [Dat.before_out_kept _ 7 rfl t h0 (Bool.eq_false_iff.mpr fun h => by have := (flush0_7 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t))

set_option maxHeartbeats 2000000 in
/-- The body at any point: the inputs' buffers show their blocks; the point is the first, a middle one or the last, and
    after the first the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  have hN : t.val < 25 := lt_of_lt_of_eq t.isLt (show cfg0.N = 25 from N_0)
  by_cases h0 : t.val = 0
  · rw [outsAt_A m c t h0]
    unfold out_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_A c (grid0.coords t) _ _ _ _ _ _ _ _ _ _ _ _ _ _ _ _ ((hcond_first t).mpr h0) (not_last_of_first t h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_A c _ _ _ _ _ _ _ _ _ _ _ _ _ _ _ _ _ _ _ _ _ _ _ _ _ _ )
  · simp only [before_7_later m c t h0]
    by_cases h1 : t.val = 24
    · rw [outsAt_C m c t h0 h1]
      unfold out_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_C c (grid0.coords t) _ _ _ _ _ _ _ _ _ _ _ _ _ _ _ _ (not_first_of_ne t h0) ((hcond_last t).mpr h1) (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_C c _ _ _ _ _ _ _ _ _ _ _ _ _ _ _ _ _ _ _ _ _ _ _ _ _ _ _ )
    · rw [outsAt_B m c t h0 h1]
      unfold out_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_B c (grid0.coords t) _ _ _ _ _ _ _ _ _ _ _ _ _ _ _ _ (not_first_of_ne t h0) (not_last_of_ne t h1) (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_B c _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## The buffers at the region's exit -/

/-- As at the region's entry, the output array at what the last point's write-back left. -/
def V1 (c : Dev nD) : Valuation τ sig (Elt F) :=
  Function.update (V0 m c) (Proc.devRef .tc main_v0) ((dats m 0 c).arrAt 7 cfg0.N)

theorem hV1_in (c : Dev nD) (w : Fin cfg0.W) (hw : Pipeline.arrRef spec0 w ≠ main_v0) (hin : (cfg0.win w).isOut = false) :
    (dats m 0 c).arrAt w cfg0.N = V1 m c (Proc.devRef .tc (Pipeline.arrRef spec0 w)) := by
  unfold V1; rw [Function.update_of_ne (StableHlo.devRef_ne_of_ne hw)]
  exact ((dats m 0 c).arrAt_in w hin _).trans (A_eq m c w)

theorem hV1 (c : Dev nD) (w : Fin cfg0.W) : (dats m 0 c).arrAt w cfg0.N = V1 m c (Proc.devRef .tc (Pipeline.arrRef spec0 w)) := by
  by_cases h : w = 7
  · subst h
    unfold V1
    exact (Function.update_self (Proc.devRef .tc main_v0) ((dats m 0 c).arrAt 7 cfg0.N) (V0 m c)).symm
  · exact hV1_in m c w (by revert w; decide) (by revert w; decide)

theorem hrest (c : Dev nD) : ∀ b ∈ Pipeline.restRefs sig spec0, V1 m c (Proc.devRef .tc b) = V0 m c (Proc.devRef .tc b) := fun b hb => by
  unfold V1
  refine Function.update_of_ne (StableHlo.devRef_ne_of_ne ?_) _ _
  rintro rfl
  simp only [Pipeline.restRefs, Finset.mem_sdiff, Finset.mem_image, Finset.mem_univ, true_and] at hb
  exact hb.2 ⟨7, rfl⟩

/-! ## Dealing the buffers among the windows -/

/-- The seven distinct buffers behind the eight windows. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1) ∗ (((c : Thread nD τ).loc main_arg2) ↦{fullShare} Vv main_arg2) ∗ (((c : Thread nD τ).loc main_call0_v0) ↦{fullShare} Vv main_call0_v0) ∗ (((c : Thread nD τ).loc main_arg4) ↦{fullShare} Vv main_arg4) ∗ (((c : Thread nD τ).loc main_call0_v1) ↦{fullShare} Vv main_call0_v1) ∗ (((c : Thread nD τ).loc main_v0) ↦{fullShare} Vv main_v0)) := by
  unfold Pipeline.arrBufs
  exact bigSep_eq_bigSepL_of_eq [main_arg0, main_arg1, main_arg2, main_call0_v0, main_arg4, main_call0_v1, main_v0] (by decide) (by decide) _

/-- What the windows hold of them: each its array whole, the two windows on the feature matrix half a share each. -/
theorem arrays_eq (c : Dev nD) (Vv : (b : Ref sig .tc) → Buf (Elt F) ((c : Thread nD τ).loc b))
    (Fw : (w : Fin cfg0.W) → Buf (Elt F) ((spec0 w).arr.view.loc (c : Thread nD τ))) (hF : ∀ w, Fw w = Vv (Pipeline.arrRef spec0 w)) :
    ((dats m 0 c).arrays Fw : sProp 𝕄)
      = iprop((((c : Thread nD τ).loc main_arg0) ↦{fullShare} Vv main_arg0) ∗ (((c : Thread nD τ).loc main_arg1) ↦{fullShare.left} Vv main_arg1)
          ∗ (((c : Thread nD τ).loc main_arg1) ↦{fullShare.right} Vv main_arg1) ∗ (((c : Thread nD τ).loc main_arg2) ↦{fullShare} Vv main_arg2)
          ∗ (((c : Thread nD τ).loc main_call0_v0) ↦{fullShare} Vv main_call0_v0) ∗ (((c : Thread nD τ).loc main_arg4) ↦{fullShare} Vv main_arg4)
          ∗ (((c : Thread nD τ).loc main_call0_v1) ↦{fullShare} Vv main_call0_v1) ∗ (((c : Thread nD τ).loc main_v0) ↦{fullShare} Vv main_v0)) := by
  unfold Dat.arrays
  rw [bigSep_W0, hF 0, hF 1, hF 2, hF 3, hF 4, hF 5, hF 6, hF 7, (arr_whole0 0).set_eq_univ, (arr_whole0 1).set_eq_univ, (arr_whole0 3).set_eq_univ, (arr_whole0 4).set_eq_univ, (arr_whole0 5).set_eq_univ, (arr_whole0 6).set_eq_univ, (arr_whole0 7).set_eq_univ]
  rfl

theorem hdeal (c : Dev nD) (Vv : (b : Ref sig .tc) → Buf (Elt F) ((c : Thread nD τ).loc b))
    (Fw : (w : Fin cfg0.W) → Buf (Elt F) ((spec0 w).arr.view.loc (c : Thread nD τ))) (hF : ∀ w, Fw w = Vv (Pipeline.arrRef spec0 w)) :
    (Pipeline.arrBufs spec0 c Vv : sProp 𝕄) ⊣⊢ (dats m 0 c).arrays Fw := by
  rw [arrBufs_eq, arrays_eq m c Vv Fw hF]
  constructor
  · iintro ⟨H0, H1, H2, H3, H4, H5, H6⟩
    ihave H1' := (pointsTo_share (PosShare.mem_left_op_right fullShare)).1 $$ H1
    icases H1' with ⟨H1a, H1b⟩
    isplitl [H0]; · iexact H0
    isplitl [H1a]; · iexact H1a
    isplitl [H1b]; · iexact H1b
    isplitl [H2]; · iexact H2
    isplitl [H3]; · iexact H3
    isplitl [H4]; · iexact H4
    isplitl [H5]; · iexact H5
    iexact H6
  · iintro ⟨H0, H1a, H1b, H2, H3, H4, H5, H6⟩
    isplitl [H0]; · iexact H0
    isplitl [H1a H1b]
    · iapply (pointsTo_share (PosShare.mem_left_op_right fullShare)).2
      isplitl [H1a]; · iexact H1a
      iexact H1b
    isplitl [H2]; · iexact H2
    isplitl [H3]; · iexact H3
    isplitl [H4]; · iexact H4
    isplitl [H5]; · iexact H5
    iexact H6

/-! ## The run and the frame -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

set_option backward.isDefEq.respectTransparency.types false in
/-- Every weakly fair execution ends, with every array of the pipeline at what the proof data say and every other
    unscoped buffer as the region found it. -/
theorem run_main : θ_run defs (onTc (τ := τ) (main (F := F))) (s₀ m ρ)
    (Pipeline.FramePost cfgs (dats m) 0 (fun c b => StableHlo.after ([] : List (List (HloOp τ sig (Elt F)))).flatten (V1 m c) (Proc.devRef .tc b))) :=
  Pipeline.θ_run_frame_around_track_shared cfgs (dats m) (0 : Fin 1) defs₀ Variants.none cellOf_inj winFacts₀0 block_pos0 arr_whole0 stage_whole0 m ρ main
    (hbody := fun c => (body_obligation m c).loose) (howed := fun _ _ => rfl) (V₀ := V0 m) (V₁ := V1 m) (opss := [])
    (hsub := fun _ h => absurd h (List.not_mem_nil)) (hfresh := fun _ h => absurd h (List.not_mem_nil)) (hkeep := fun _ h => absurd h (List.not_mem_nil))
    (hmain := hmain m Variants.none) (hdeal := hdeal m) (hA := A_eq m) (hV₁ := hV1 m) (hrest := hrest m)
    (hin := fun _ => .rfl) (hout := fun _ => .rfl)

/-- The value the output array ends at, and the argument arrays unchanged. -/
theorem run_out : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 7,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 3).trans (((dats m 0 c).arrAt_in 3 rfl _).trans ((A_eq m c 3).trans (V_main_arg2 m c))),
    ((h c).2 main_arg3 (Pipeline.mem_restRefs_of main_arg3 (by decide) (by decide))).trans ((hrest m c main_arg3 (Pipeline.mem_restRefs_of main_arg3 (by decide) (by decide))).trans (V_main_arg3 m c)),
    ((h c).1 5).trans (((dats m 0 c).arrAt_in 5 rfl _).trans ((A_eq m c 5).trans (V_main_arg4 m c))),
    ((h c).2 main_arg5 (Pipeline.mem_restRefs_of main_arg5 (by decide) (by decide))).trans ((hrest m c main_arg5 (Pipeline.mem_restRefs_of main_arg5 (by decide) (by decide))).trans (V_main_arg5 m c))⟩)
    (run_main m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_out m ρ)

end Cert.KernelIdeal.Hand

end
-- ==== Proof.KIValue.lean ====
/-
  What the output's staging buffer holds after each point, as values.

  The first point leaves the zero matrix plus the first block's product; every later point adds its block's product to
  what the point before left; the last point then applies the two dense layers to (features + sum). So after point `n`
  the buffer holds the running sum `acc n`, and after the last point the layers of `acc 24`. The one write-back, at the
  last point, writes the whole output array.
-/
import proofs.«173049_g9139690406275_cont_9to1_m_1116_3_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A middle point adds its block's product to the running contents. -/
theorem val_B (c : Dev nD) (i : grid0.Coords) (a1 : Memref sig .tc .vmem S400x10000 .f32) (h1 : a1.IsWhole) (a2 : Memref sig .tc .vmem S400x128 .f32) (h2 : a2.IsWhole) (a3 : Memref sig .tc .vmem S10000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (hc0 : ¬cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) :
    out_B c i a1 h1 a2 h2 a3 h3 a4 h4 a5 h5 a6 h6 a7 h7 a8 h8 hc0 hc1 x0 x1 x2 x3 x4 x5 x6 xo = k0_pay2 x0 x1 xo := by
  unfold out_B
  rw [View.read_writes_eq_canon _ _ _ (cover_B c i a1 h1 a2 h2 a3 h3 a4 h4 a5 h5 a6 h6 a7 h7 a8 h8 hc0 hc1 x0 x1 x2 x3 x4 x5 x6 xo)]
  unfold kernelRun_B
  dsimp only
  rw [View.canon_unit_zero hz]
  simp only [View.readAt_eq_ld, h1.read_unread, h2.read_unread, h3.read_unread, h4.read_unread, h5.read_unread, h6.read_unread, h7.read_unread, h8.read_unread, View.ld_unit_zero (S := S400x10000) hz, View.ld_unit_zero (S := S400x128) hz, View.ld_unit_zero (S := S10000x128) hz, View.ld_unit_zero (S := S128x128) hz, View.ld_unit_zero (S := S1x128) hz]

/-- The first point stores the zero matrix, reads it back, and adds the first block's product. -/
theorem val_A (c : Dev nD) (i : grid0.Coords) (a1 : Memref sig .tc .vmem S400x10000 .f32) (h1 : a1.IsWhole) (a2 : Memref sig .tc .vmem S400x128 .f32) (h2 : a2.IsWhole) (a3 : Memref sig .tc .vmem S10000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (hc0 : cond_first i) (hc1 : ¬cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) :
    out_A c i a1 h1 a2 h2 a3 h3 a4 h4 a5 h5 a6 h6 a7 h7 a8 h8 hc0 hc1 x0 x1 x2 x3 x4 x5 x6 = k0_pay2 x0 x1 (k0_pay1 (F := F)) := by
  unfold out_A
  rw [View.read_writes_eq_canon _ _ _ (cover_A c i a1 h1 a2 h2 a3 h3 a4 h4 a5 h5 a6 h6 a7 h7 a8 h8 hc0 hc1 x0 x1 x2 x3 x4 x5 x6)]
  unfold kernelRun_A
  dsimp only
  sl_unfold_words
  rw [View.canon_cons_unit_zero (S := S10000x128) hz, View.readCov_unit_zero (S := S10000x128) _ hz]
  simp only [View.readAt_eq_ld, h1.read_unread, h2.read_unread, h3.read_unread, h4.read_unread, h5.read_unread, h6.read_unread, h7.read_unread, h8.read_unread, View.ld_unit_zero (S := S400x10000) hz, View.ld_unit_zero (S := S400x128) hz, View.ld_unit_zero (S := S10000x128) hz, View.ld_unit_zero (S := S128x128) hz, View.ld_unit_zero (S := S1x128) hz]

/-- The last point adds its block's product, then replaces the contents by the two dense layers of it. -/
theorem val_C (c : Dev nD) (i : grid0.Coords) (a1 : Memref sig .tc .vmem S400x10000 .f32) (h1 : a1.IsWhole) (a2 : Memref sig .tc .vmem S400x128 .f32) (h2 : a2.IsWhole) (a3 : Memref sig .tc .vmem S10000x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S10000x128 .f32) (h8 : a8.IsWhole) (hc0 : ¬cond_first i) (hc1 : cond_last i)
    (x0 : Vec F S400x10000 .f32) (x1 : Vec F S400x128 .f32) (x2 : Vec F S10000x128 .f32) (x3 : Vec F S128x128 .f32) (x4 : Vec F S1x128 .f32) (x5 : Vec F S128x128 .f32) (x6 : Vec F S1x128 .f32) (xo : Vec F S10000x128 .f32) :
    out_C c i a1 h1 a2 h2 a3 h3 a4 h4 a5 h5 a6 h6 a7 h7 a8 h8 hc0 hc1 x0 x1 x2 x3 x4 x5 x6 xo = k0_pay3 x2 (k0_pay2 x0 x1 xo) x3 x4 x5 x6 := by
  unfold out_C
  rw [View.read_writes_eq_canon _ _ _ (cover_C c i a1 h1 a2 h2 a3 h3 a4 h4 a5 h5 a6 h6 a7 h7 a8 h8 hc0 hc1 x0 x1 x2 x3 x4 x5 x6 xo)]
  unfold kernelRun_C
  dsimp only
  sl_unfold_words
  rw [View.canon_cons_unit_zero (S := S10000x128) hz, View.readCov_unit_zero (S := S10000x128) _ hz]
  simp only [View.readAt_eq_ld, h1.read_unread, h2.read_unread, h3.read_unread, h4.read_unread, h5.read_unread, h6.read_unread, h7.read_unread, h8.read_unread, View.ld_unit_zero (S := S400x10000) hz, View.ld_unit_zero (S := S400x128) hz, View.ld_unit_zero (S := S10000x128) hz, View.ld_unit_zero (S := S128x128) hz, View.ld_unit_zero (S := S1x128) hz]

/-! ## The running sum -/

/-- After point `n`: the zero matrix plus the products of blocks 0 … n, added in that order. -/
def acc (c : Dev nD) : (n : ℕ) → n < cfg0.N → Vec F S10000x128 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (acc c n (Nat.lt_of_succ_lt h))

/-- Before the last point the output's buffer holds the running sum. -/
theorem outsAt_eq_acc (c : Dev nD) : ∀ (n : ℕ) (h : n < cfg0.N), n ≠ 24 → outsAt m c n h = acc m c n h
  | 0, h, _ => (outsAt_A m c ⟨0, h⟩ rfl).trans (val_A ..)
  | n + 1, h, hne => by
    have hN : cfg0.N = 25 := N_0
    rw [outsAt_B m c ⟨n + 1, h⟩ (Nat.succ_ne_zero n) hne, val_B]
    show k0_pay2 _ _ (outsAt m c n _) = k0_pay2 _ _ (acc m c n _)
    rw [outsAt_eq_acc c n _ (by omega)]

theorem lt_N (n : ℕ) (h : n < 25) : n < cfg0.N := by rw [show cfg0.N = 25 from N_0]; exact h

/-- The last point. -/
abbrev tLast : Fin cfg0.N := ⟨24, lt_N 24 (by decide)⟩

/-- What the output array ends at: the two dense layers of (features + the sum over all 25 blocks). -/
abbrev result (c : Dev nD) : Buf (Elt F) ((c : Thread nD τ).loc main_v0) :=
  k0_pay3 (iblk m c 2 tLast) (acc m c 24 (lt_N 24 (by decide))) (iblk m c 3 tLast) (iblk m c 4 tLast) (iblk m c 5 tLast) (iblk m c 6 tLast)

theorem outsAt_last (c : Dev nD) : outsAt m c 24 (lt_N 24 (by decide)) = result m c := by
  rw [outsAt_C m c tLast (by decide) rfl, val_C]
  show k0_pay3 _ (k0_pay2 _ _ (outsAt m c 23 _)) _ _ _ _ = _
  rw [outsAt_eq_acc m c 23 _ (by decide)]
  rfl

/-- The one write-back, at the last point, writes it: the block is the whole array. -/
theorem flushed_eq (c : Dev nD) (t : Fin cfg0.N) (hf : (cfg0.win 7).flush t = true) :
    (dats m 0 c).flushed 7 t = ((cfg0.win 7).blk t).view.read (Elt F) (result m c) := by
  have hN : cfg0.N = 25 := N_0
  have h24 : t.val = 24 := by have := (flush0_7 t).mp hf; have := t.isLt; omega
  obtain rfl : t = tLast := Fin.ext h24
  show (cfg0.win 7).cut (grid0.coords tLast) ((dats m 0 c).after 7 tLast) = _
  rw [after_7, outsAt_last]
  have hz' : (fun a => win0_7.index tLast a * main_v0.ty.shape.size a) = fun _ => 0 := funext fun a => by fin_cases a <;> decide +kernel
  exact (Memref.read_access_unit_zero (Elt F) main_v0 hz' (fun a => by rw [congrFun hz' a]; simp) (result m c)).symm

/-- So the output array ends holding it. -/
theorem final_out (c : Dev nD) : (dats m 0 c).arrAt 7 cfg0.N = result m c :=
  (dats m 0 c).arrAt_eq_of_cover 7 (result m c) (flushed_eq m c) fun i =>
    ⟨tLast, (flush0_7 tLast).mpr rfl, by
      show i ∈ ((View.whole main_v0).slice (win0_7.rect tLast)).set
      rw [View.set_slice_whole, Rect.mem_set_unit]
      intro a
      have h0 : (i 0 : Nat) < 10000 := (i 0).isLt
      have h1 : (i 1 : Nat) < 128 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 10000 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 128 from by decide +kernel]; omega⟩

/-- The run, read: the output array at `result`, the arguments unchanged. -/
theorem run_value : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final_out m c), (h c).2⟩) (run_out m ρ)

end Cert.KernelIdeal.Hand

end
-- ==== Proof.Spec.lean ====
/-
  The graph layer both programs compute, as one function of the argument arrays on the extended reals.

  A node `i` sends its feature row to a node `j` when the score `g[i, j]` is positive: `edge` is that indicator
  (one or zero). Node `j` gathers the rows sent to it (`agg`), adds its own row, and passes the sum through two
  dense layers, each a matrix product plus a bias row cut off below at zero (`dense`):

    gin[j, e] = dense (dense (h[j, ·] + agg[j, ·]) W1 b1) W2 b2 e.

  Nothing here needs the entries to be finite: only sums, products and maxima of extended reals are formed.
-/
import Idealize.ShloMosaic.Lib.ValueIdx

noncomputable section

open scoped BigOperators

namespace Cert.GinSpec

open Idealize.ShloMosaic Idealize.ShloMosaic.ValueIdx

/-- The float zero, as the word both programs print. -/
abbrev zero : Ideal .f32 := Ideal.ofBits .f32 0x00000000#32

/-- The indicator of a positive score: the comparison's bit read as a number. -/
def edge (x : Ideal .f32) : Ideal .f32 := (((Ideal.cmp .ogt x zero).toNat : ℝ) : EReal)

/-- What node `j` gathers in feature `d`: the sum of the rows of the nodes with an edge into `j`. -/
def agg (g : FVec Ideal ⟨2, ![10000, 10000]⟩ .f32) (h : FVec Ideal ⟨2, ![10000, 128]⟩ .f32) (j : Fin 10000) (d : Fin 128) : Ideal .f32 :=
  ∑ i : Fin 10000, edge (g (ix2 i j)) * h (ix2 i d)

/-- One dense layer on a row: the product with the weight matrix, plus the bias, cut off below at zero. -/
def dense (x : Fin 128 → Ideal .f32) (W : FVec Ideal ⟨2, ![128, 128]⟩ .f32) (b : FVec Ideal ⟨1, ![128]⟩ .f32) (e : Fin 128) : Ideal .f32 :=
  max ((∑ d : Fin 128, x d * W (ix2 d e)) + b (ix1 e)) zero

/-- The row a node feeds the first layer: its own features plus what it gathered. -/
def pre (g : FVec Ideal ⟨2, ![10000, 10000]⟩ .f32) (h : FVec Ideal ⟨2, ![10000, 128]⟩ .f32) (j : Fin 10000) (d : Fin 128) : Ideal .f32 :=
  h (ix2 j d) + agg g h j d

/-- The layer's output at node `j`, feature `e`. -/
def ginAt (g : FVec Ideal ⟨2, ![10000, 10000]⟩ .f32) (h : FVec Ideal ⟨2, ![10000, 128]⟩ .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (j : Fin 10000) (e : Fin 128) : Ideal .f32 :=
  dense (dense (pre g h j) W1 b1) W2 b2 e

/-- The whole output array. -/
def gin (g : FVec Ideal ⟨2, ![10000, 10000]⟩ .f32) (h : FVec Ideal ⟨2, ![10000, 128]⟩ .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) : FVec Ideal ⟨2, ![10000, 128]⟩ .f32 :=
  fun i => ginAt g h W1 b1 W2 b2 (i 0) (i 1)

theorem gin_ix2 (g : FVec Ideal ⟨2, ![10000, 10000]⟩ .f32) (h : FVec Ideal ⟨2, ![10000, 128]⟩ .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32) (j : Fin 10000) (e : Fin 128) :
    gin g h W1 b1 W2 b2 (ix2 j e) = ginAt g h W1 b1 W2 b2 j e := rfl

end Cert.GinSpec

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibColumnProduct.lean ====
/-
  A matrix product that contracts the LEADING axis of both operands, into a zero accumulator, read at an entry, for
  any extents.

  For a [K, M] left operand and a [K, N] right operand contracted row against row (left axis 0 against right axis 0, no
  batch axes) — the product of the left operand's transpose with the right operand — on the extended reals, entry
  (r, e) of the product accumulated into the zero matrix is ∑ k < K, lhs[k, r] · rhs[k, e]: the accumulator contributes
  0 + _, and the contraction's one-axis index is its one coordinate. The dimension record may be any record equal to
  `DotDims.leadingAxes` (a program's own record differs from it only in the proof it carries).
-/
import Idealize.ShloMosaic.Lib.ValueIdx
import Idealize.ShloMosaic.PureOps.Ideal.Laws

noncomputable section

namespace Idealize.ShloMosaic

/-- `<[0], [0], [1], [1], [0, 1, 1, 1], [], []>`: `K×M` by `K×N`, both contracted on their first axis. -/
def DotDims.leadingAxes (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

namespace ValueIdx

/-- Entry (r, e) of a [K, M]ᵀ × [K, N] product into the zero accumulator is ∑ k, lhs[k, r] · rhs[k, e]. -/
theorem matmul_leadingAxes_zero_apply {K M N : ℕ} {φ₁ φ₂ : FTy} (d : DotDims ⟨2, ![K, M]⟩ ⟨2, ![K, N]⟩ ⟨2, ![M, N]⟩)
    (hd : d = DotDims.leadingAxes K M N) (prec : Option ContractPrecision)
    (lhs : FVec Ideal ⟨2, ![K, M]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 k r) * rhs (ix2 k e) := by
  subst hd
  rw [Ideal.matmul_constant_zero_apply, ← Equiv.sum_comp (contrEquiv1 (DotDims.leadingAxes K M N) K rfl rfl).symm]
  refine Finset.sum_congr rfl fun k _ => ?_
  have hk := contrEquiv1_symm_val (DotDims.leadingAxes K M N) K rfl rfl k
  have el : (DotDims.leadingAxes K M N).lhsIdx (ix2 r e) ((contrEquiv1 (DotDims.leadingAxes K M N) K rfl rfl).symm k) = ix2 k r :=
    funext fun a => Fin.ext (by
      match a with
      | ⟨0, _⟩ => exact hk
      | ⟨1, _⟩ => rfl)
  have er : (DotDims.leadingAxes K M N).rhsIdx (ix2 r e) ((contrEquiv1 (DotDims.leadingAxes K M N) K rfl rfl).symm k) = ix2 k e :=
    funext fun a => Fin.ext (by
      match a with
      | ⟨0, _⟩ => exact hk
      | ⟨1, _⟩ => rfl)
  rw [el, er]

end ValueIdx

end Idealize.ShloMosaic

end
-- ==== Proof.KIBridge.lean ====
/-
  The kernel's result is the graph layer `gin` of the argument arrays, on the extended reals.

  Block `t` of the score matrix is its rows 400 t … 400 t + 399, and likewise of the feature matrix; the other windows
  show their whole arrays (the bias vectors as one-row matrices). At an entry (j, d) the accumulation step adds
  ∑ r < 400, edge(g[400 t + r, j]) · h[400 t + r, d] to the running sum, so after the last block the sum runs over all
  10000 source nodes: a sum over 25 blocks of 400 is the sum over 10000, in any additive commutative monoid. The two
  dense layers then read entry by entry as the specification spells them.
-/
import proofs.«173049_g9139690406275_cont_9to1_m_1116_3_alg».proof.Proof.KIValue
import proofs.«173049_g9139690406275_cont_9to1_m_1116_3_alg».proof.Proof.Spec
import proofs.«173049_g9139690406275_cont_9to1_m_1116_3_alg».proof.Proof.LibBlockSum
import proofs.«173049_g9139690406275_cont_9to1_m_1116_3_alg».proof.Proof.LibPlainMatmul
import proofs.«173049_g9139690406275_cont_9to1_m_1116_3_alg».proof.Proof.LibColumnProduct
import Idealize.ShloMosaic.Lib.KernelVsHost
import Idealize.ShloMosaic.Lib.ValueLayout
import Idealize.ShloMosaic.Lib.StableHlo.Run

set_option maxRecDepth 16384

noncomputable section

open scoped BigOperators

namespace Cert.KernelIdeal.Bridge

open Cert.KernelIdeal Cert.KernelIdeal.Gen Cert.KernelIdeal.Hand Cert.GinSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Where each window's block lies -/

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = 0 ∧ win0_6.index t 1 = 0 :=
  (by decide +kernel : ∀ t : Fin grid0.N, win0_6.index t 0 = 0 ∧ win0_6.index t 1 = 0)

/-- Row `r` of block `t`: row 400 t + r of the whole. -/
def row (t : Fin cfg0.N) (r : Fin 400) : Fin 10000 :=
  ⟨t.val * 400 + r.val, by have h1 := t.isLt; have hN : cfg0.N = 25 := N_0; have h2 := r.isLt; omega⟩

/-- The score block at point `t`. -/
theorem scores_apply (c : Dev nD) (t : Fin cfg0.N) (r : Fin 400) (j : Fin 10000) :
    (iblk m c 0 t : Vec Ideal S400x10000 .f32) (ix2 r j) = m ((c : Thread nD τ).loc main_arg0) (ix2 (row t r) j) := by
  unfold iblk
  rw [View.read_apply]
  show V m c main_arg0 _ = m (c.tc.loc main_arg0) _
  rw [V_main_arg0]
  congr 1
  funext a
  apply Fin.ext
  match a with
  | ⟨0, _⟩ => show win0_0.index t 0 * 400 + 1 * r.val = t.val * 400 + r.val; rw [(idx_0 t).1]; omega
  | ⟨1, _⟩ => show win0_0.index t 1 * 10000 + 1 * j.val = j.val; rw [(idx_0 t).2]; omega

/-- The feature block at point `t`. -/
theorem feats_apply (c : Dev nD) (t : Fin cfg0.N) (r : Fin 400) (d : Fin 128) :
    (iblk m c 1 t : Vec Ideal S400x128 .f32) (ix2 r d) = m ((c : Thread nD τ).loc main_arg1) (ix2 (row t r) d) := by
  unfold iblk
  rw [View.read_apply]
  show V m c main_arg1 _ = m (c.tc.loc main_arg1) _
  rw [V_main_arg1]
  congr 1
  funext a
  apply Fin.ext
  match a with
  | ⟨0, _⟩ => show win0_1.index t 0 * 400 + 1 * r.val = t.val * 400 + r.val; rw [(idx_1 t).1]; omega
  | ⟨1, _⟩ => show win0_1.index t 1 * 128 + 1 * d.val = d.val; rw [(idx_1 t).2]; omega

/-- The whole feature matrix, the two weight matrices. -/
theorem featsAll_eq (c : Dev nD) (t : Fin cfg0.N) : (iblk m c 2 t : Vec Ideal S10000x128 .f32) = m ((c : Thread nD τ).loc main_arg1) := by
  funext y
  unfold iblk
  rw [View.read_apply]
  show V m c main_arg1 _ = m (c.tc.loc main_arg1) y
  rw [V_main_arg1]
  congr 1
  funext a
  apply Fin.ext
  match a with
  | ⟨0, _⟩ => show win0_2.index t 0 * 10000 + 1 * (y 0).val = (y 0).val; rw [(idx_2 t).1]; omega
  | ⟨1, _⟩ => show win0_2.index t 1 * 128 + 1 * (y 1).val = (y 1).val; rw [(idx_2 t).2]; omega
theorem w1_eq (c : Dev nD) (t : Fin cfg0.N) : (iblk m c 3 t : Vec Ideal S128x128 .f32) = m ((c : Thread nD τ).loc main_arg2) := by
  funext y
  unfold iblk
  rw [View.read_apply]
  show V m c main_arg2 _ = m (c.tc.loc main_arg2) y
  rw [V_main_arg2]
  congr 1
  funext a
  apply Fin.ext
  match a with
  | ⟨0, _⟩ => show win0_3.index t 0 * 128 + 1 * (y 0).val = (y 0).val; rw [(idx_3 t).1]; omega
  | ⟨1, _⟩ => show win0_3.index t 1 * 128 + 1 * (y 1).val = (y 1).val; rw [(idx_3 t).2]; omega
theorem w2_eq (c : Dev nD) (t : Fin cfg0.N) : (iblk m c 5 t : Vec Ideal S128x128 .f32) = m ((c : Thread nD τ).loc main_arg4) := by
  funext y
  unfold iblk
  rw [View.read_apply]
  show V m c main_arg4 _ = m (c.tc.loc main_arg4) y
  rw [V_main_arg4]
  congr 1
  funext a
  apply Fin.ext
  match a with
  | ⟨0, _⟩ => show win0_5.index t 0 * 128 + 1 * (y 0).val = (y 0).val; rw [(idx_5 t).1]; omega
  | ⟨1, _⟩ => show win0_5.index t 1 * 128 + 1 * (y 1).val = (y 1).val; rw [(idx_5 t).2]; omega

/-- The two bias vectors, recast as one-row matrices before the region. -/
theorem V_bias1 (c : Dev nD) : (V m c main_call0_v0 : S1x128.Idx → EReal) = shapeCast S1x128 (m ((c : Thread nD τ).loc main_arg3)) shapeCasts_S128_S1x128 := by
  dsimp only [V, V0]
  simp only [hostOps0, List.flatten_cons, List.flatten_nil, List.append_nil, List.cons_append, List.nil_append]
  after_results
  rfl
theorem V_bias2 (c : Dev nD) : (V m c main_call0_v1 : S1x128.Idx → EReal) = shapeCast S1x128 (m ((c : Thread nD τ).loc main_arg5)) shapeCasts_S128_S1x128 := by
  dsimp only [V, V0]
  simp only [hostOps0, List.flatten_cons, List.flatten_nil, List.append_nil, List.cons_append, List.nil_append]
  after_results
  rfl

theorem bias1_apply (c : Dev nD) (t : Fin cfg0.N) (e : Fin 128) :
    (iblk m c 4 t : Vec Ideal S1x128 .f32) (ix2 (0 : Fin 1) e) = m ((c : Thread nD τ).loc main_arg3) (ix1 e) := by
  unfold iblk
  rw [View.read_apply]
  show V m c main_call0_v0 _ = _
  rw [V_bias1]
  refine Eq.trans ?_ (shapeCast_a_1a_apply _ shapeCasts_S128_S1x128 (0 : Fin 1) e)
  congr 1
  funext a
  apply Fin.ext
  match a with
  | ⟨0, _⟩ => show win0_4.index t 0 * 1 + 1 * 0 = 0; rw [(idx_4 t).1]
  | ⟨1, _⟩ => show win0_4.index t 1 * 128 + 1 * e.val = e.val; rw [(idx_4 t).2]; omega
theorem bias2_apply (c : Dev nD) (t : Fin cfg0.N) (e : Fin 128) :
    (iblk m c 6 t : Vec Ideal S1x128 .f32) (ix2 (0 : Fin 1) e) = m ((c : Thread nD τ).loc main_arg5) (ix1 e) := by
  unfold iblk
  rw [View.read_apply]
  show V m c main_call0_v1 _ = _
  rw [V_bias2]
  refine Eq.trans ?_ (shapeCast_a_1a_apply _ shapeCasts_S128_S1x128 (0 : Fin 1) e)
  congr 1
  funext a
  apply Fin.ext
  match a with
  | ⟨0, _⟩ => show win0_6.index t 0 * 1 + 1 * 0 = 0; rw [(idx_6 t).1]
  | ⟨1, _⟩ => show win0_6.index t 1 * 128 + 1 * e.val = e.val; rw [(idx_6 t).2]; omega

/-! ## The two payloads at an entry -/

/-- The comparison's bit, widened and read signed, is the edge indicator. -/
theorem edge_of_bit (x : Ideal .f32) :
    (FloatOps.sitofp (F := Ideal) .f32 ((FloatOps.cmpf (F := Ideal) .ogt x (Scalar.ofBits (F := Ideal) .f32 0x00000000#32)).setWidth 32) : EReal) = edge x := by
  show ((((Ideal.cmp .ogt x zero).setWidth 32).toInt : ℝ) : EReal) = (((Ideal.cmp .ogt x zero).toNat : ℝ) : EReal)
  rw [toInt_setWidth_bit]
  norm_cast

/-- The accumulation step at (j, d): the running entry plus the block's contribution. -/
theorem step_apply (gb : Vec Ideal S400x10000 .f32) (xb : Vec Ideal S400x128 .f32) (a : Vec Ideal S10000x128 .f32) (j : Fin 10000) (d : Fin 128) :
    k0_pay2 (F := Ideal) gb xb a (ix2 j d) = a (ix2 j d) + ∑ r : Fin 400, edge (gb (ix2 r j)) * xb (ix2 r d) := by
  unfold k0_pay2
  refine congrArg₂ (· + ·) (congrFun (shapeCast_self a shapeCasts_S10000x128_S10000x128) (ix2 j d)) ?_
  refine (matmul_leadingAxes_zero_apply dot_S400x10000_S400x128_S10000x128_0_0_1_1_n_n rfl none _ _ j d).trans ?_
  exact Finset.sum_congr rfl fun r _ => congrArg (· * xb (ix2 r d)) (edge_of_bit (gb (ix2 r j)))

/-- One dense layer at (j, e). -/
theorem layer_apply (X : FVec Ideal S10000x128 .f32) (W : FVec Ideal S128x128 .f32) (br : FVec Ideal S1x128 .f32) (j : Fin 10000) (e : Fin 128) :
    maximumf (addf (FloatOps.matmul dot_S10000x128_S128x128_S10000x128_1_0_0_1_n_n none X W (constant S10000x128 .f32 0x00000000#32))
        (broadcastTo S10000x128 (shapeCast S1x128 br shapeCasts_S1x128_S1x128) broadcasts_S1x128_S10000x128))
      (broadcast S10000x128 (Scalar.ofBits (F := Ideal) .f32 0x00000000#32)) (ix2 j e)
      = max ((∑ k : Fin 128, X (ix2 j k) * W (ix2 k e)) + br (ix2 (0 : Fin 1) e)) zero := by
  show max (FloatOps.matmul _ none X W _ (ix2 j e) + broadcastTo _ _ _ (ix2 j e)) _ = _
  refine congrArg₂ (fun s b => max (s + b) zero)
    (matmul_plain_zero_apply dot_S10000x128_S128x128_S10000x128_1_0_0_1_n_n rfl none X W j e) ?_
  exact (broadcastTo_1b_ab_apply _ broadcasts_S1x128_S10000x128 j e).trans (congrFun (shapeCast_self br shapeCasts_S1x128_S1x128) _)

/-- The epilogue at (j, e): the two layers of (features + running sum). -/
theorem epilogue_apply (xf a : FVec Ideal S10000x128 .f32) (W1 : FVec Ideal S128x128 .f32) (b1r : FVec Ideal S1x128 .f32)
    (W2 : FVec Ideal S128x128 .f32) (b2r : FVec Ideal S1x128 .f32) (j : Fin 10000) (e : Fin 128) :
    k0_pay3 (F := Ideal) xf a W1 b1r W2 b2r (ix2 j e)
      = max ((∑ d : Fin 128, (max ((∑ k : Fin 128, (xf (ix2 j k) + a (ix2 j k)) * W1 (ix2 k d)) + b1r (ix2 (0 : Fin 1) d)) zero) * W2 (ix2 d e))
          + b2r (ix2 (0 : Fin 1) e)) zero := by
  unfold k0_pay3
  refine (layer_apply _ W2 b2r j e).trans ?_
  refine congrArg (fun s => max (s + b2r (ix2 (0 : Fin 1) e)) zero) ?_
  refine Finset.sum_congr rfl fun d _ => congrArg (· * W2 (ix2 d e)) ?_
  refine (layer_apply _ W1 b1r j d).trans ?_
  refine congrArg (fun s => max (s + b1r (ix2 (0 : Fin 1) d)) zero) ?_
  refine Finset.sum_congr rfl fun k _ => congrArg (· * W1 (ix2 k d)) ?_
  exact congrArg (xf (ix2 j k) + ·) (congrFun (shapeCast_self a shapeCasts_S10000x128_S10000x128) (ix2 j k))

/-! ## The running sum at an entry, and the total -/

section Total

variable (c : Dev nD)

/-- What source node `i` sends to entry (j, d). -/
def term (j : Fin 10000) (d : Fin 128) (i : Fin 10000) : EReal :=
  edge (m ((c : Thread nD τ).loc main_arg0) (ix2 i j)) * m ((c : Thread nD τ).loc main_arg1) (ix2 i d)

/-- What block `t` of 400 source nodes sends (nothing past the 25 blocks). -/
def blockSum (j : Fin 10000) (d : Fin 128) (t : ℕ) : EReal :=
  if ht : t < 25 then ∑ r : Fin 400, term m c j d (blockRow (T := 25) (B := 400) ⟨t, ht⟩ r) else 0

/-- The accumulation step at point `t` adds block `t`'s contribution. -/
theorem step_block (t : Fin cfg0.N) (a : Vec Ideal S10000x128 .f32) (j : Fin 10000) (d : Fin 128) :
    k0_pay2 (F := Ideal) (iblk m c 0 t) (iblk m c 1 t) a (ix2 j d) = a (ix2 j d) + blockSum m c j d t.val := by
  refine (step_apply (iblk m c 0 t) (iblk m c 1 t) a j d).trans ?_
  have ht : t.val < 25 := lt_of_lt_of_eq t.isLt N_0
  unfold blockSum
  rw [dif_pos ht]
  refine congrArg (a (ix2 j d) + ·) (Finset.sum_congr rfl fun r _ => ?_)
  exact (congrArg₂ (fun x y => edge x * y) (scores_apply m c t r j) (feats_apply m c t r d)).trans rfl

/-- After point `n` entry (j, d) of the running sum is zero plus the contributions of blocks 0 … n. -/
theorem acc_apply : ∀ (n : ℕ) (h : n < cfg0.N) (j : Fin 10000) (d : Fin 128),
    acc m c n h (ix2 j d) = zero + ∑ t ∈ Finset.range (n + 1), blockSum m c j d t
  | 0, h, j, d => by
    show k0_pay2 (F := Ideal) (iblk m c 0 ⟨0, h⟩) (iblk m c 1 ⟨0, h⟩) (k0_pay1 (F := Ideal)) (ix2 j d) = _
    rw [step_block m c ⟨0, h⟩ _ j d, Finset.sum_range_one]
    rfl
  | n + 1, h, j, d => by
    show k0_pay2 (F := Ideal) (iblk m c 0 ⟨n + 1, h⟩) (iblk m c 1 ⟨n + 1, h⟩) (acc m c n (Nat.lt_of_succ_lt h)) (ix2 j d) = _
    rw [step_block m c ⟨n + 1, h⟩ _ j d, acc_apply n _ j d, Finset.sum_range_succ _ (n + 1), add_assoc]

/-- The 25 blocks together are all 10000 source nodes. -/
theorem sum_blocks (j : Fin 10000) (d : Fin 128) :
    ∑ t ∈ Finset.range 25, blockSum m c j d t = agg (m ((c : Thread nD τ).loc main_arg0)) (m ((c : Thread nD τ).loc main_arg1)) j d := by
  rw [Finset.sum_range]
  have h1 : (∑ i : Fin 10000, term m c j d i) = ∑ t : Fin 25, ∑ b : Fin 400, term m c j d (blockRow t b) :=
    sum_blockRows 25 400 (term m c j d)
  refine Eq.trans ?_ h1.symm
  exact Finset.sum_congr rfl fun t _ => dif_pos t.isLt

/-- So after the last block the running sum is the gathered sum. -/
theorem acc_last (j : Fin 10000) (d : Fin 128) :
    acc m c 24 (lt_N 24 (by decide)) (ix2 j d) = agg (m ((c : Thread nD τ).loc main_arg0)) (m ((c : Thread nD τ).loc main_arg1)) j d := by
  rw [acc_apply m c 24 _ j d, sum_blocks]
  show Ideal.ofBits .f32 0x00000000#32 + _ = _
  rw [Ideal.ofBits_zero_f32, zero_add]

end Total

/-! ## The result -/

/-- The epilogue of arrays that are the arguments' is the layer at (j, e). -/
theorem entry_eq (xf a : FVec Ideal S10000x128 .f32) (W1 : FVec Ideal S128x128 .f32) (b1r : FVec Ideal S1x128 .f32)
    (W2 : FVec Ideal S128x128 .f32) (b2r : FVec Ideal S1x128 .f32)
    (g : FVec Ideal S10000x10000 .f32) (h : FVec Ideal S10000x128 .f32) (W1' : FVec Ideal S128x128 .f32) (b1 : FVec Ideal S128 .f32)
    (W2' : FVec Ideal S128x128 .f32) (b2 : FVec Ideal S128 .f32) (j : Fin 10000) (e : Fin 128)
    (hxf : xf = h) (ha : ∀ k, a (ix2 j k) = agg g h j k) (hW1 : W1 = W1') (hb1 : ∀ d, b1r (ix2 (0 : Fin 1) d) = b1 (ix1 d))
    (hW2 : W2 = W2') (hb2 : ∀ d, b2r (ix2 (0 : Fin 1) d) = b2 (ix1 d)) :
    k0_pay3 (F := Ideal) xf a W1 b1r W2 b2r (ix2 j e) = ginAt g h W1' b1 W2' b2 j e := by
  subst hxf hW1 hW2
  rw [epilogue_apply]
  unfold ginAt dense pre
  simp only [ha, hb1, hb2]

/-- The kernel's result array is `gin` of the argument arrays. -/
theorem result_eq_gin (c : Dev nD) :
    result m c = gin (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨j, e, rfl⟩ : ∃ (j : Fin 10000) (e : Fin 128), i = ix2 j e := ⟨i 0, i 1, eq_ix2 i⟩
  exact entry_eq (iblk m c 2 tLast) (acc m c 24 (lt_N 24 (by decide))) (iblk m c 3 tLast) (iblk m c 4 tLast) (iblk m c 5 tLast) (iblk m c 6 tLast)
    _ _ _ _ _ _ j e (featsAll_eq m c tLast) (fun k => acc_last m c j k) (w1_eq m c tLast) (fun d => bias1_apply m c tLast d)
    (w2_eq m c tLast) (fun d => bias2_apply m c tLast d)

end Cert.KernelIdeal.Bridge

end
-- ==== Proof.RefSpec.lean ====
/-
  The reference's result is the graph layer `gin` of the argument arrays.

  Stage by stage, at a node `j` and a feature: the transposed edge indicator, the gathered sum as a sum over all
  source nodes, the node's own row added, then each dense layer as a sum over the 128 features plus the bias, cut off
  below at zero. Each stage is the generated reading of one operation, its index function identified by coordinates.
-/
import proofs.«173049_g9139690406275_cont_9to1_m_1116_3_alg».proof.Proof.Gen.ReferenceIdeal.Read
import proofs.«173049_g9139690406275_cont_9to1_m_1116_3_alg».proof.Proof.Spec

noncomputable section

open scoped BigOperators

namespace Cert.ReferenceIdeal.RefSpec

open Cert.ReferenceIdeal Cert.ReferenceIdeal.Read Idealize.ShloMosaic Idealize.ShloMosaic.ValueIdx Cert.GinSpec

/-- The transposed indicator: entry (j, i) is the indicator of the score g[i, j]. -/
theorem mask_apply (g : FVec Ideal S10000x10000 .f32) (j i : Fin 10000) :
    val_main_v3 (F := Ideal) g (ix2 j i) = edge (g (ix2 i j)) := by
  rw [val_main_v3_apply, val_main_v2_apply, val_main_v1_apply, val_main_v0_apply, val_main_cst_apply]
  have e : idx_main_v3 (ix2 j i) = ix2 i j := funext fun a => Fin.ext (by match a with | ⟨0, _⟩ => rfl | ⟨1, _⟩ => rfl)
  rw [e]; rfl

/-- The gathered sum at node j, feature d. -/
theorem agg_apply (g : FVec Ideal S10000x10000 .f32) (h : FVec Ideal S10000x128 .f32) (j : Fin 10000) (d : Fin 128) :
    val_main_v4 (F := Ideal) g h (ix2 j d) = agg g h j d := by
  rw [val_main_v4_apply]
  unfold agg
  refine Finset.sum_congr rfl fun k _ => ?_
  have el : lidx_main_v4 (ix2 j d) k = ix2 j k := funext fun a => Fin.ext (by match a with | ⟨0, _⟩ => rfl | ⟨1, _⟩ => rfl)
  have er : ridx_main_v4 (ix2 j d) k = ix2 k d := funext fun a => Fin.ext (by match a with | ⟨0, _⟩ => rfl | ⟨1, _⟩ => rfl)
  rw [el, er, mask_apply]

/-- The row fed to the first layer. -/
theorem pre_apply (g : FVec Ideal S10000x10000 .f32) (h : FVec Ideal S10000x128 .f32) (j : Fin 10000) (d : Fin 128) :
    val_main_v5 (F := Ideal) g h (ix2 j d) = pre g h j d := by
  rw [val_main_v5_apply, agg_apply]; rfl

/-- A bias vector spread over the rows reads its entry. -/
theorem bias1_apply (b : FVec Ideal S128 .f32) (j : Fin 10000) (e : Fin 128) :
    val_main_v8 (F := Ideal) b (ix2 j e) = b (ix1 e) := by
  rw [val_main_v8_apply, val_main_v7_apply]
  congr 1
  exact funext fun a => Fin.ext (by match a with | ⟨0, _⟩ => rfl)
theorem bias2_apply (b : FVec Ideal S128 .f32) (j : Fin 10000) (e : Fin 128) :
    val_main_v13 (F := Ideal) b (ix2 j e) = b (ix1 e) := by
  rw [val_main_v13_apply, val_main_v12_apply]
  congr 1
  exact funext fun a => Fin.ext (by match a with | ⟨0, _⟩ => rfl)

/-- The first layer. -/
theorem hid_apply (g : FVec Ideal S10000x10000 .f32) (h : FVec Ideal S10000x128 .f32) (W1 : FVec Ideal S128x128 .f32) (b1 : FVec Ideal S128 .f32)
    (j : Fin 10000) (e : Fin 128) :
    val_main_v10 (F := Ideal) g h W1 b1 (ix2 j e) = dense (pre g h j) W1 b1 e := by
  rw [val_main_v10_apply, val_main_v9_apply, val_main_v6_apply, bias1_apply, val_main_call0_v0_apply, val_main_call0_cst_apply]
  unfold dense
  have hs : (∑ k : Fin 128, val_main_v5 (F := Ideal) g h (lidx_main_v6 (ix2 j e) k) * W1 (ridx_main_v6 (ix2 j e) k))
      = ∑ d : Fin 128, pre g h j d * W1 (ix2 d e) := by
    refine Finset.sum_congr rfl fun k _ => ?_
    have el : lidx_main_v6 (ix2 j e) k = ix2 j k := funext fun a => Fin.ext (by match a with | ⟨0, _⟩ => rfl | ⟨1, _⟩ => rfl)
    have er : ridx_main_v6 (ix2 j e) k = ix2 k e := funext fun a => Fin.ext (by match a with | ⟨0, _⟩ => rfl | ⟨1, _⟩ => rfl)
    rw [el, er, pre_apply]
  rw [hs]; rfl

/-- The second layer: the reference's result at (j, e). -/
theorem out_apply (g : FVec Ideal S10000x10000 .f32) (h : FVec Ideal S10000x128 .f32) (W1 : FVec Ideal S128x128 .f32) (b1 : FVec Ideal S128 .f32)
    (W2 : FVec Ideal S128x128 .f32) (b2 : FVec Ideal S128 .f32) (j : Fin 10000) (e : Fin 128) :
    val_main_v15 (F := Ideal) g h W1 b1 W2 b2 (ix2 j e) = ginAt g h W1 b1 W2 b2 j e := by
  rw [val_main_v15_apply, val_main_v14_apply, val_main_v11_apply, bias2_apply, val_main_call1_v0_apply, val_main_call1_cst_apply]
  unfold ginAt
  show max ((∑ k : Fin 128, _) + b2 (ix1 e)) zero = dense (dense (pre g h j) W1 b1) W2 b2 e
  unfold dense
  have hs : (∑ k : Fin 128, val_main_v10 (F := Ideal) g h W1 b1 (lidx_main_v11 (ix2 j e) k) * W2 (ridx_main_v11 (ix2 j e) k))
      = ∑ d : Fin 128, (max ((∑ d' : Fin 128, pre g h j d' * W1 (ix2 d' d)) + b1 (ix1 d)) zero) * W2 (ix2 d e) := by
    refine Finset.sum_congr rfl fun k _ => ?_
    have el : lidx_main_v11 (ix2 j e) k = ix2 j k := funext fun a => Fin.ext (by match a with | ⟨0, _⟩ => rfl | ⟨1, _⟩ => rfl)
    have er : ridx_main_v11 (ix2 j e) k = ix2 k e := funext fun a => Fin.ext (by match a with | ⟨0, _⟩ => rfl | ⟨1, _⟩ => rfl)
    rw [el, er, hid_apply]; rfl
  rw [hs]

/-- The reference's result array is `gin` of the arguments. -/
theorem ref_eq_gin (g : FVec Ideal S10000x10000 .f32) (h : FVec Ideal S10000x128 .f32) (W1 : FVec Ideal S128x128 .f32) (b1 : FVec Ideal S128 .f32)
    (W2 : FVec Ideal S128x128 .f32) (b2 : FVec Ideal S128 .f32) :
    val_main_v15 (F := Ideal) g h W1 b1 W2 b2 = gin g h W1 b1 W2 b2 := by
  funext i
  obtain ⟨j, e, rfl⟩ : ∃ (j : Fin 10000) (e : Fin 128), i = ix2 j e := ⟨i 0, i 1, eq_ix2 i⟩
  exact out_apply g h W1 b1 W2 b2 j e

end Cert.ReferenceIdeal.RefSpec

end
-- ==== Proof.lean ====
/-
  A graph layer on a dense score matrix: node j gathers the feature rows of the nodes i with a positive score
  g[i, j], adds its own row, and passes the sum through two dense layers, each cut off below at zero,

    out = max(max((h + (g > 0)ᵀ h) W1 + b1, 0) W2 + b2, 0).

  The kernel walks the 10000 source nodes in 25 blocks of 400. Its output block is the whole [10000, 128] result,
  carried from point to point: zeroed at the first point, the block's product (indicator blockᵀ · feature block) added
  at every point, and at the last point replaced by the two dense layers of (h + the sum). The reference forms the
  gathered sum as one product over all 10000 nodes. On the extended reals the two agree entry by entry: a sum over
  25 blocks of 400 terms is the sum over the 10000 terms (addition is associative and commutative there, infinities
  included), the zero accumulators contribute 0 + _, and every other operation is the same on both sides. Nothing
  needs the inputs to be finite.

  The three frames: the kernel (read at words and at the extended reals) runs its three cases — first point, middle
  points, last point — on staging buffers holding the blocks; the feature matrix is handed to the pipeline through two
  windows, which hold its buffer at half a share each. The reference is host operations only.
-/
import proofs.«173049_g9139690406275_cont_9to1_m_1116_3_alg».proof.Defs
import proofs.«173049_g9139690406275_cont_9to1_m_1116_3_alg».proof.Proof.Gen.Kernel
import proofs.«173049_g9139690406275_cont_9to1_m_1116_3_alg».proof.Proof.Gen.KernelIdeal
import proofs.«173049_g9139690406275_cont_9to1_m_1116_3_alg».proof.Proof.Gen.ReferenceIdeal
import proofs.«173049_g9139690406275_cont_9to1_m_1116_3_alg».proof.Proof.Gen.Pre_finite_inputs
import proofs.«173049_g9139690406275_cont_9to1_m_1116_3_alg».proof.Proof.Gen.ReferenceIdeal.Run
import proofs.«173049_g9139690406275_cont_9to1_m_1116_3_alg».proof.Proof.Gen.ReferenceIdeal.Read
import proofs.«173049_g9139690406275_cont_9to1_m_1116_3_alg».proof.Proof.KFrame
import proofs.«173049_g9139690406275_cont_9to1_m_1116_3_alg».proof.Proof.KIBridge
import proofs.«173049_g9139690406275_cont_9to1_m_1116_3_alg».proof.Proof.RefSpec

noncomputable section

namespace Cert.Proof

open Idealize.ShloMosaic Idealize.SL.Sem

theorem frame_kernel : Cert.frame_Kernel := fun m ρ _ => Cert.Kernel.Hand.frame m ρ

theorem frame_ideal : Cert.frame_KernelIdeal := fun m ρ _ => Cert.KernelIdeal.Hand.frame m ρ

/-- The reference is host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the graph layer of the arguments in their result array. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefSpec.ref_eq_gin,
    (hagree c).1, (hagree c).2.1, (hagree c).2.2.1, (hagree c).2.2.2.1, (hagree c).2.2.2.2.1, (hagree c).2.2.2.2.2]
  exact (Cert.KernelIdeal.Bridge.result_eq_gin m c).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
